-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S1024x2048 : Shape := ⟨2, ![1024, 2048]⟩
abbrev S512x2048 : Shape := ⟨2, ![512, 2048]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S512 : Shape := ⟨1, ![512]⟩
abbrev S512x1 : Shape := ⟨2, ![512, 1]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  reduces_S1024x2048_S1024 : S1024x2048.Reduces [1] S1024
  shapeCasts_S1024_S1024x1 : S1024.ShapeCasts S1024x1
  reduces_S512x2048_S512 : S512x2048.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_call2_v0 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_call3_v0 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Runs.lean ====
/-
  What the three runs of the mining kernel's body share: the program around its one region (two reshapes of the labels
  before it, the mean hinge after it), each window's block of its array as the region finds it, the two conditions of
  the body in closed form (the first column block of a row block, and the last), where the two output windows are
  idle, and the memrefs the pipeline hands the body.
-/
import proofs.«108540_j67207648247978_2_alg».proof.Proof.Gen.Kernel.Launch
import proofs.«108540_j67207648247978_2_alg».proof.Proof.Gen.Kernel.Skeleton
import proofs.«108540_j67207648247978_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshapes, the region, and the lines after it: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes the matrix: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the label vector. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block": the condition of the body's first `scf.if`. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition of the body's second `scf.if`. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the body stores nothing into the two outputs and the pipeline does not write them back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column block it stores into both. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch operands: the running maximum and the running minimum of a row block. -/
abbrev scM0_0 : Memref sig .tc .vmem S1024x1 .f32 := Memref.whole cc0_scratch0
abbrev scM0_1 : Memref sig .tc .vmem S1024x1 .f32 := Memref.whole cc0_scratch1
/-- Views through which the outputs' and the scratches' contents are stated. -/
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev VS0_0 : View sig .tc .vmem S1024x1 .f32 := scM0_0.view
abbrev VS0_1 : View sig .tc .vmem S1024x1 .f32 := scM0_1.view

/-- The scoped buffers no window stages are the two scratch operands, each owned whole at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Frame

end
-- ==== Proof.K.RunA.lean ====
/-
  The body of the mining kernel run at the first column block of a row block: both running extremes are reset (to −∞ and +∞) and then updated with this block's; the outputs are not touched.
-/
import proofs.«108540_j67207648247978_2_alg».proof.Proof.K.Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers (last first) at the first column block of a row block, with the proof that on
    whole memrefs — the inputs' at their blocks, the outputs' at contents handed back untouched, the scratches at anything — the body runs to its continuation
    holding the inputs as they were and each stored buffer with its pieces written. -/
noncomputable def kernelRun0_A (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .f32) (x1 : Vec F S512x2048 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Frame

end
-- ==== Proof.K.RunB.lean ====
/-
  The body of the mining kernel run at a column block that is neither first nor last: both running extremes are updated with this block's; the outputs are not touched.
-/
import proofs.«108540_j67207648247978_2_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers (last first) at a column block that is neither first nor last, with the proof that on
    whole memrefs — the inputs' at their blocks, the outputs' at contents handed back untouched, the scratches at what the point before left — the body runs to its continuation
    holding the inputs as they were and each stored buffer with its pieces written. -/
noncomputable def kernelRun0_B (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .f32) (x1 : Vec F S512x2048 .f32) (x2 : Vec F S1024x1 .i32) (x3 : Vec F S1x512 .i32) (xs0 : Vec F S1024x1 .f32) (xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Frame

end
-- ==== Proof.K.RunC.lean ====
/-
  The body of the mining kernel run at the last column block of a row block: both running extremes are updated with this block's, and the roots of their clamps at 0 are stored into the two outputs.
-/
import proofs.«108540_j67207648247978_2_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers and the two outputs (last first) at the last column block of a row block, with the proof that on
    whole memrefs — the inputs' at their blocks, the outputs' at anything, the scratches at what the point before left — the body runs to its continuation
    holding the inputs as they were and each stored buffer with its pieces written. -/
noncomputable def kernelRun0_C (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .f32) (x1 : Vec F S512x2048 .f32) (x2 : Vec F S1024x1 .i32) (x3 : Vec F S1x512 .i32) (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Frame

end
-- ==== Proof.K.Body.lean ====
/-
  The mining kernel's region, point by point: what the two scratch buffers (the running maximum and minimum of a row
  block) and the two outputs hold after each grid point, by recursion on the point; the pipeline's proof data over
  it — the matrix handed to two input windows, each holding half of it —; and the body's obligation at every point.
-/
import proofs.«108540_j67207648247978_2_alg».proof.Proof.K.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y
theorem scover0_A_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y
/-- What this case leaves in the running-maximum scratch: its pieces read back. -/
def sout0_A_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)
/-- What this case leaves in the running-minimum scratch: its pieces read back. -/
def sout0_A_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

theorem scover0_B_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y
theorem scover0_B_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y
/-- What this case leaves in the running-maximum scratch: its pieces read back. -/
def sout0_B_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)
/-- What this case leaves in the running-minimum scratch: its pieces read back. -/
def sout0_B_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

theorem scover0_C_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scover0_C_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y
/-- What this case leaves in the running-maximum scratch: its pieces read back. -/
def sout0_C_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)
/-- What this case leaves in the running-minimum scratch: its pieces read back. -/
def sout0_C_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

theorem cover0_C_4 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y
theorem cover0_C_5 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y
/-- What the last column block leaves in the first output's staging buffer. -/
def out0_C_4 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)
/-- What the last column block leaves in the second output's staging buffer. -/
def out0_C_5 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- Placeholders for the outputs' buffers at the points that store nothing into them (nothing consults them: there the
    windows are idle and not written back). -/
def junk0_4 : Vec F S1024x1 .f32 := VO0_4.read (Elt F) (VO0_4.writes (Elt F) VO0_4.junk [])
def junk0_5 : Vec F S1024x1 .f32 := VO0_5.read (Elt F) (VO0_5.writes (Elt F) VO0_5.junk [])

/-! ## What the outputs and the scratches hold after each point -/

/-- After the body at position `n`: the two outputs' staging buffers and the two scratches (maximum, minimum), by the
    case the position is in — first column block, last, or between —, the scratches read at what position `n - 1` left. -/
def outsAt0 (c : Dev nD) : (n : ℕ) → n < cfg0.N → Vec F S1024x1 .f32 × Vec F S1024x1 .f32 × Vec F S1024x1 .f32 × Vec F S1024x1 .f32
  | 0, hn => (junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (junk0_4, junk0_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)
      else
        (junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two scratches at anything; afterwards each at
    what the point before left in it. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 m c n hn).2.2.1) ∗ owns (c : Thread nD τ) scM0_1 fullShare ((outsAt0 m c n hn).2.2.2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl
theorem PhiS_succ (c : Dev nD) (n : ℕ) (hn : n < cfg0.N) :
    PhiS m c (n + 1) hn = iprop(owns (c : Thread nD τ) scM0_0 fullShare ((outsAt0 m c n hn).2.2.1) ∗ owns (c : Thread nD τ) scM0_1 fullShare ((outsAt0 m c n hn).2.2.2)) := rfl
theorem PhiS_pos (c : Dev nD) (n : ℕ) (h : n ≤ cfg0.N) (hz : n ≠ 0) :
    PhiS m c n h = iprop(owns (c : Thread nD τ) scM0_0 fullShare ((outsAt0 m c (n - 1) (by omega)).2.2.1) ∗ owns (c : Thread nD τ) scM0_1 fullShare ((outsAt0 m c (n - 1) (by omega)).2.2.2)) := by
  cases n with
  | zero => exact absurd rfl hz
  | succ n => rfl

/-! ## The pipeline's proof data -/

/-- The arrays as the region finds them; after the body each input's buffer at its block and the outputs' at `outsAt0`;
    the invariant `PhiS`; nothing owed. The matrix is read through two windows (row blocks and column blocks), each
    holding one half of it; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; the closed forms of the two conditions say which case
    the point is in; the invariant hands the body the scratches at what the point before left (at anything before the
    first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [outsAt0_A m c t h0 h1]
      unfold sout0_A_0 sout0_A_1; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) hc1' (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) hc1' (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hc0' : ¬cond0_0 (grid0.coords t) := fun h => h0 ((hcond0_0 t).mp h)
    have hz : t.val ≠ 0 := fun hz => h0 (by rw [hz])
    by_cases h1 : t.val % 8 = 7
    · have hc1' : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1'], after0_4]
      rw [show (dats m 0 c).leavesExact 5 t = owns (c : Thread nD τ) (ms0_5 t) fullShare ((dats m 0 c).after 5 t) from by
        unfold Dat.leavesExact; rw [liveAt0_5 t hc1'], after0_5]
      rw [outsAt0_C m c t h0 h1]
      unfold out0_C_4 out0_C_5 sout0_C_0 sout0_C_1; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ hc0' hc1' (iblk m c 0 t) (iblk m c 1 t) (iblk m c 2 t) (iblk m c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        · unfold owns; iexists _; isplitr
          swap; · iexact H5
          ipureintro; exact View.read_writes_of_cover _ _ _ _ _ (cover0_C_5 c _ _ _ _ _ _ _ _ _ _ _ _ _ _ _ _ _ _ _ _ _ _ _ _ _)
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [outsAt0_B m c t h0 h1]
      unfold sout0_B_0 sout0_B_1; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ hc0' hc1' (iblk m c 0 t) (iblk m c 1 t) (iblk m c 2 t) (iblk m c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.K.Launch.lean ====
/-
  The launch of the mining kernel's region and the lines after it. The matrix is handed to the kernel through two
  input windows, so its buffer is dealt to them half and half at the region's entry; the lines after the region read
  only the two outputs and the buffers that bypass the region, so they run holding those alone.
-/
import proofs.«108540_j67207648247978_2_alg».proof.Proof.K.Body

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the arrays' buffers dealt to the windows -/

/-- The five distinct buffers behind the six windows' arrays, listed. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_v0) ↦{fullShare} Vc main_v0) ∗ (((c : Thread nD τ).loc main_v1) ↦{fullShare} Vc main_v1) ∗ (((c : Thread nD τ).loc main_v2_0) ↦{fullShare} Vc main_v2_0) ∗ (((c : Thread nD τ).loc main_v2_1) ↦{fullShare} Vc main_v2_1)) := by
  unfold Pipeline.arrBufs
  exact bigSep_eq_bigSepL_of_eq [main_arg0, main_v0, main_v1, main_v2_0, main_v2_1] (by decide) (by decide) _

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- The proof data's arrays, window by window. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v2_0) ↦{fullShare} G 4) ∗ (((c : Thread nD τ).loc main_v2_1) ↦{fullShare} G 5)) := by
  unfold Dat.arrays
  rw [bigSep_W0, (arr_whole0 0).set_eq_univ, (arr_whole0 2).set_eq_univ, (arr_whole0 3).set_eq_univ, (arr_whole0 4).set_eq_univ, (arr_whole0 5).set_eq_univ,
    share0_0, share0_1, share0_2, share0_3, share0_4, share0_5]

/-- ENTRY: the matrix's buffer is split between its two windows; every other array goes to its one window whole. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨HA, H2, H3, H4, H5⟩
  ihave HA := (pointsTo_share (PosShare.mem_left_op_right fullShare)).1 $$ HA
  icases HA with ⟨HA0, HA1⟩
  isplitl [HA0]; · iexact HA0
  isplitl [HA1]; · iexact HA1
  isplitl [H2]; · iexact H2
  isplitl [H3]; · iexact H3
  isplitl [H4]; · iexact H4
  iexact H5

/-! ## The invariant at the region's ends -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_owns]

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_owns]
  iintro ⟨HS0, HS1⟩
  isplitl [HS0]
  · iexists _; iexact HS0
  · iexists _; iexact HS1

/-! ## The lines after the region -/

/-- The buffers the lines after the region touch: the two outputs and the buffers that bypass the region. -/
def tailSet : Finset (DevRef τ sig) :=
  insert (Proc.devRef .tc main_v2_0) (insert (Proc.devRef .tc main_v2_1)
    ((Pipeline.restRefs sig spec0).map ⟨Proc.devRef (sig := sig) (.tc : Proc τ), Proc.devRef_injective _⟩))

theorem mem_tailSet {r : Ref sig .tc} (h : r = main_v2_0 ∨ r = main_v2_1 ∨ r ∈ Pipeline.restRefs sig spec0) :
    Proc.devRef .tc r ∈ (tailSet : Finset (DevRef τ sig)) := by
  rcases h with rfl | rfl | h
  · exact Finset.mem_insert_self _ _
  · exact Finset.mem_insert_of_mem (Finset.mem_insert_self _ _)
  · exact Finset.mem_insert_of_mem (Finset.mem_insert_of_mem (Finset.mem_map_of_mem _ h))

theorem v2_0_not_rest : main_v2_0 ∉ Pipeline.restRefs sig spec0 := by decide
theorem v2_1_not_rest : main_v2_1 ∉ Pipeline.restRefs sig spec0 := by decide

/-- Every operation after the region reads and writes only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl
  all_goals
    simp only [StableHlo.reshape_bufs, StableHlo.binary_bufs, StableHlo.unary_bufs, StableHlo.nullary_bufs, Finset.insert_subset_iff, Finset.singleton_subset_iff]
    repeat' apply And.intro
  all_goals exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Those buffers held at a valuation: the two outputs, and the bypassing buffers. -/
theorem held_tailSet (c : Dev nD) (W : Valuation τ sig (Elt F)) :
    (StableHlo.held (c.tc : Thread nD τ) tailSet W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ Pipeline.unscopedRest (Ix := Unit) (Name := ℕ) (U := UR sig nD τ) (Lvl := ℕ) spec0 c (fun b => W (Proc.devRef .tc b))) := by
  unfold StableHlo.held tailSet Pipeline.unscopedRest
  rw [bigSep_insert (fun h => by
      rcases Finset.mem_insert.mp h with h | h
      · exact StableHlo.devRef_ne_of_ne (by decide) h
      · obtain ⟨b, hb, e⟩ := Finset.mem_map.mp h
        exact v2_0_not_rest (Proc.devRef_injective _ e ▸ hb)),
    bigSep_insert (fun h => by
      obtain ⟨b, hb, e⟩ := Finset.mem_map.mp h
      exact v2_1_not_rest (Proc.devRef_injective _ e ▸ hb)),
    bigSep_map]
  rfl

/-- The buffers' contents at the region's exit: the two outputs at what the write-backs left, the rest as at entry. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- The buffers' contents at the program's end: the lines after the region run from the exit contents. -/
def Vout (c : Dev nD) (b : Ref sig .tc) : Buf (Elt F) ((c : Thread nD τ).loc b) :=
  StableHlo.after (List.flatten [hostOps1]) (Wexit m c) (Proc.devRef .tc b)

theorem Wexit_4 (c : Dev nD) : Wexit m c (Proc.devRef .tc main_v2_0) = (dats m 0 c).arrAt 4 cfg0.N := by
  unfold Wexit
  rw [Function.update_of_ne (StableHlo.devRef_ne_of_ne (by decide)), Function.update_self]
theorem Wexit_5 (c : Dev nD) : Wexit m c (Proc.devRef .tc main_v2_1) = (dats m 0 c).arrAt 5 cfg0.N := by
  unfold Wexit
  rw [Function.update_self]
theorem Wexit_rest (c : Dev nD) (b : Ref sig .tc) (hb : b ∈ Pipeline.restRefs sig spec0) :
    Wexit m c (Proc.devRef .tc b) = V m c b := by
  unfold Wexit
  rw [Function.update_of_ne (StableHlo.devRef_ne_of_ne (fun e : b = main_v2_1 => v2_1_not_rest (by rw [← e]; exact hb))),
    Function.update_of_ne (StableHlo.devRef_ne_of_ne (fun e : b = main_v2_0 => v2_0_not_rest (by rw [← e]; exact hb)))]

theorem unscopedRest_Wexit (c : Dev nD) :
    (Pipeline.unscopedRest (Ix := Unit) (Name := ℕ) (U := UR sig nD τ) (Lvl := ℕ) spec0 c (fun b => Wexit m c (Proc.devRef .tc b)) : sProp 𝕄)
      = Pipeline.unscopedRest (Ix := Unit) (Name := ℕ) (U := UR sig nD τ) (Lvl := ℕ) spec0 c (V m c) := by
  unfold Pipeline.unscopedRest
  exact bigSep_congr fun b hb => by dsimp only; rw [Wexit_rest m c b hb]

/-- No line after the region writes an output array: they end at what the write-backs left. -/
theorem after_4 (c : Dev nD) :
    StableHlo.after (List.flatten [hostOps1]) (Wexit m c) (Proc.devRef .tc main_v2_0) = (dats m 0 c).arrAt 4 cfg0.N := by
  rw [StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_4]
theorem after_5 (c : Dev nD) :
    StableHlo.after (List.flatten [hostOps1]) (Wexit m c) (Proc.devRef .tc main_v2_1) = (dats m 0 c).arrAt 5 cfg0.N := by
  rw [StableHlo.after_of_forall_not_mem (b := Proc.devRef .tc main_v2_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_5]

/-- At the region's exit the two outputs at what the write-backs left and the bypassing buffers as at entry are the
    tail's buffers held at the exit contents. -/
theorem held_exit (c : Dev nD) :
    iprop((((c : Thread nD τ).loc main_v2_0) ↦{fullShare} (dats m 0 c).arrAt 4 cfg0.N) ∗ (((c : Thread nD τ).loc main_v2_1) ↦{fullShare} (dats m 0 c).arrAt 5 cfg0.N)
        ∗ Pipeline.unscopedRest (Ix := Unit) (Name := ℕ) (U := UR sig nD τ) (Lvl := ℕ) spec0 c (V m c))
      ⊢ (StableHlo.held (c.tc : Thread nD τ) tailSet (Wexit m c) : sProp 𝕄) := by
  rw [held_tailSet, Wexit_4, Wexit_5, unscopedRest_Wexit]

/-- After the lines: the two outputs still at what the write-backs left, the bypassing buffers at the lines' results. -/
theorem tail_back (c : Dev nD) :
    iprop(boundary (c.tc : Thread nD τ) ∗ (StableHlo.held (c.tc : Thread nD τ) tailSet (StableHlo.after (List.flatten [hostOps1]) (Wexit m c)) : sProp 𝕄))
      ⊢ iprop((((c : Thread nD τ).loc main_v2_0) ↦{fullShare} (dats m 0 c).arrAt 4 cfg0.N) ∗ (((c : Thread nD τ).loc main_v2_1) ↦{fullShare} (dats m 0 c).arrAt 5 cfg0.N)
        ∗ Pipeline.unscopedRest (Ix := Unit) (Name := ℕ) (U := UR sig nD τ) (Lvl := ℕ) spec0 c (Vout m c)) := by
  rw [held_tailSet, after_4, after_5]
  unfold Vout
  iintro ⟨-, H⟩
  iexact H

set_option backward.isDefEq.respectTransparency.types false in
/-- The lines after the region, from its exit: they run holding the two outputs and the bypassing buffers, and hand
    back the arrays as the region left them and the bypassing buffers at the lines' results. -/
theorem htail (c : Dev nD) (Q' : PUnit → sProp 𝕄) :
    iprop((iprop((dats m 0 c).arrays ((dats m 0 c).arrAt · cfg0.N) ∗ Pipeline.unscopedRest (Ix := Unit) (Name := ℕ) (U := UR sig nD τ) (Lvl := ℕ) spec0 c (Vout m c)) -∗ Q' ⟨⟩)
        ∗ boundary (c.tc : Thread nD τ) ∗ (dats m 0 c).arrays ((dats m 0 c).arrAt · cfg0.N) ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  rw [arrays0_eq]
  show _ ⊢ wp frame _ Set.univ (Pipeline.chain (([hostOps1] : List (List (HloOp τ sig (Elt F)))).map StableHlo.seq ++ [])) Q'
  have hp : ∀ Q' : PUnit → sProp 𝕄, iprop(|={Set.univ}=> Q' ⟨⟩)
      ⊢ wp frame (wpE (Pipeline.defs (fun q => Cfg.toPCfg (Val := Elt F) (cfgs q)) defs₀) (Variants.lift Variants.none) (c.tc : Thread nD τ) none) Set.univ
          (Pipeline.chain []) Q' := fun Q' => by
    rw [Pipeline.chain_nil, wp_pure]
  iintro ⟨Hk, Hb, ⟨HA0, HA1, H2, H3, H4, H5⟩, HZ⟩
  ihave HH := (held_exit m c) $$ [H4 H5 HZ]
  · isplitl [H4]; · iexact H4
    isplitl [H5]; · iexact H5
    iexact HZ
  iapply (Pipeline.wp_seqs_then (fun q => Cfg.toPCfg (Val := Elt F) (cfgs q)) defs₀ Variants.none c tailSet [] [hostOps1] tail_sub tail_fresh (Wexit m c)) $$ [Hb HH]
  · isplitl [Hb]; · iexact Hb
    iexact HH
  iintro Hb
  ihave HB := (tail_back m c) $$ Hb
  icases HB with ⟨H4, H5, HZ⟩
  iapply (hp Q')
  imodintro
  iapply Hk
  isplitr [HZ]
  · isplitl [HA0]; · iexact HA0
    isplitl [HA1]; · iexact HA1
    isplitl [H2]; · iexact H2
    isplitl [H3]; · iexact H3
    isplitl [H4]; · iexact H4
    iexact H5
  · iexact HZ

/-! ## The run -/

set_option backward.isDefEq.respectTransparency.types false in
/-- Every weakly fair execution of the program terminates; every array of the pipeline ends at what the write-backs
    leave in it, every other unscoped buffer at what the lines after the region leave (`Vout`). -/
theorem run_main : θ_run defs (onTc (τ := τ) (main (F := F))) (s₀ m ρ) (Pipeline.FramePost cfgs (dats m) 0 (Vout m)) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vout m c))
    (hX := fun c => by
      rw [Pipeline.unscopedRestP_none]
      iintro HU
      isplitr; · iempintro
      iexact HU)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin m c))
    (hout := fun c => (hout m c).trans (by
      iintro HR
      isplitr; · iempintro
      iexact HR))
    (htail := htail m)
    (QY := fun c s => ∀ b ∈ Pipeline.restRefs sig spec0, s.mem ((c.tc : Thread nD τ).loc b) = Vout m c b)
    (hY := fun c s' => by
      iintro ⟨-, HU, HSI⟩
      unfold Pipeline.unscopedRest
      imodintro
      iapply (pointsTo_read_all (Pipeline.restRefs sig spec0) (fun b => (c.tc : Thread nD τ).loc b) (Vout m c) s')
      isplitl [HU] <;> iassumption)
    (hQ := fun s h c => ⟨(h c).1, (h c).2.2⟩)

/-- info: 'Cert.Kernel.Frame.run_main' depends on axioms: [propext, Classical.choice, Quot.sound] -/
#guard_msgs in #print axioms run_main

/-- No line after the region writes the label vector. -/
theorem Vout_main_arg1 (c : Dev nD) : Vout m c main_arg1 = m ((c : Thread nD τ).loc main_arg1) := by
  unfold Vout
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_rest m c main_arg1 (by decide)]
  exact V_main_arg1 m c

/-- The frame: every weakly fair execution terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
    ((h c).2 main_arg1 (by decide)).trans (Vout_main_arg1 m c)⟩) (run_main m ρ)

end Cert.Kernel.Frame

end
-- ==== Proof.KI.Runs.lean ====
/-
  What the three runs of the mining kernel's body share: the program around its one region (two reshapes of the labels
  before it, the mean hinge after it), each window's block of its array as the region finds it, the two conditions of
  the body in closed form (the first column block of a row block, and the last), where the two output windows are
  idle, and the memrefs the pipeline hands the body.
-/
import proofs.«108540_j67207648247978_2_alg».proof.Proof.Gen.KernelIdeal.Launch
import proofs.«108540_j67207648247978_2_alg».proof.Proof.Gen.KernelIdeal.Skeleton
import proofs.«108540_j67207648247978_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshapes, the region, and the lines after it: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes the matrix: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Nor the label vector. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column block": the condition of the body's first `scf.if`. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the condition of the body's second `scf.if`. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block the body stores nothing into the two outputs and the pipeline does not write them back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column block it stores into both. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch operands: the running maximum and the running minimum of a row block. -/
abbrev scM0_0 : Memref sig .tc .vmem S1024x1 .f32 := Memref.whole cc0_scratch0
abbrev scM0_1 : Memref sig .tc .vmem S1024x1 .f32 := Memref.whole cc0_scratch1
/-- Views through which the outputs' and the scratches' contents are stated. -/
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev VS0_0 : View sig .tc .vmem S1024x1 .f32 := scM0_0.view
abbrev VS0_1 : View sig .tc .vmem S1024x1 .f32 := scM0_1.view

/-- The scoped buffers no window stages are the two scratch operands, each owned whole at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Frame

end
-- ==== Proof.KI.RunA.lean ====
/-
  The body of the mining kernel run at the first column block of a row block: both running extremes are reset (to −∞ and +∞) and then updated with this block's; the outputs are not touched.
-/
import proofs.«108540_j67207648247978_2_alg».proof.Proof.KI.Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers (last first) at the first column block of a row block, with the proof that on
    whole memrefs — the inputs' at their blocks, the outputs' at contents handed back untouched, the scratches at anything — the body runs to its continuation
    holding the inputs as they were and each stored buffer with its pieces written. -/
noncomputable def kernelRun0_A (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .f32) (x1 : Vec F S512x2048 .f32) (x2 : Vec F S1024x1 .i32) (x3 : Vec F S1x512 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Frame

end
-- ==== Proof.KI.RunB.lean ====
/-
  The body of the mining kernel run at a column block that is neither first nor last: both running extremes are updated with this block's; the outputs are not touched.
-/
import proofs.«108540_j67207648247978_2_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers (last first) at a column block that is neither first nor last, with the proof that on
    whole memrefs — the inputs' at their blocks, the outputs' at contents handed back untouched, the scratches at what the point before left — the body runs to its continuation
    holding the inputs as they were and each stored buffer with its pieces written. -/
noncomputable def kernelRun0_B (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .f32) (x1 : Vec F S512x2048 .f32) (x2 : Vec F S1024x1 .i32) (x3 : Vec F S1x512 .i32) (xs0 : Vec F S1024x1 .f32) (xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Frame

end
-- ==== Proof.KI.RunC.lean ====
/-
  The body of the mining kernel run at the last column block of a row block: both running extremes are updated with this block's, and the roots of their clamps at 0 are stored into the two outputs.
-/
import proofs.«108540_j67207648247978_2_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers and the two outputs (last first) at the last column block of a row block, with the proof that on
    whole memrefs — the inputs' at their blocks, the outputs' at anything, the scratches at what the point before left — the body runs to its continuation
    holding the inputs as they were and each stored buffer with its pieces written. -/
noncomputable def kernelRun0_C (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .f32) (x1 : Vec F S512x2048 .f32) (x2 : Vec F S1024x1 .i32) (x3 : Vec F S1x512 .i32) (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Frame

end
-- ==== Proof.KI.Body.lean ====
/-
  The mining kernel's region, point by point: what the two scratch buffers (the running maximum and minimum of a row
  block) and the two outputs hold after each grid point, by recursion on the point; the pipeline's proof data over
  it — the matrix handed to two input windows, each holding half of it —; and the body's obligation at every point.
-/
import proofs.«108540_j67207648247978_2_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y
theorem scover0_A_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y
/-- What this case leaves in the running-maximum scratch: its pieces read back. -/
def sout0_A_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)
/-- What this case leaves in the running-minimum scratch: its pieces read back. -/
def sout0_A_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

theorem scover0_B_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y
theorem scover0_B_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y
/-- What this case leaves in the running-maximum scratch: its pieces read back. -/
def sout0_B_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)
/-- What this case leaves in the running-minimum scratch: its pieces read back. -/
def sout0_B_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

theorem scover0_C_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y
theorem scover0_C_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y
/-- What this case leaves in the running-maximum scratch: its pieces read back. -/
def sout0_C_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)
/-- What this case leaves in the running-minimum scratch: its pieces read back. -/
def sout0_C_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

theorem cover0_C_4 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y
theorem cover0_C_5 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y
/-- What the last column block leaves in the first output's staging buffer. -/
def out0_C_4 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)
/-- What the last column block leaves in the second output's staging buffer. -/
def out0_C_5 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- Placeholders for the outputs' buffers at the points that store nothing into them (nothing consults them: there the
    windows are idle and not written back). -/
def junk0_4 : Vec F S1024x1 .f32 := VO0_4.read (Elt F) (VO0_4.writes (Elt F) VO0_4.junk [])
def junk0_5 : Vec F S1024x1 .f32 := VO0_5.read (Elt F) (VO0_5.writes (Elt F) VO0_5.junk [])

/-! ## What the outputs and the scratches hold after each point -/

/-- After the body at position `n`: the two outputs' staging buffers and the two scratches (maximum, minimum), by the
    case the position is in — first column block, last, or between —, the scratches read at what position `n - 1` left. -/
def outsAt0 (c : Dev nD) : (n : ℕ) → n < cfg0.N → Vec F S1024x1 .f32 × Vec F S1024x1 .f32 × Vec F S1024x1 .f32 × Vec F S1024x1 .f32
  | 0, hn => (junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (junk0_4, junk0_5, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)
      else
        (junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two scratches at anything; afterwards each at
    what the point before left in it. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 m c n hn).2.2.1) ∗ owns (c : Thread nD τ) scM0_1 fullShare ((outsAt0 m c n hn).2.2.2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl
theorem PhiS_succ (c : Dev nD) (n : ℕ) (hn : n < cfg0.N) :
    PhiS m c (n + 1) hn = iprop(owns (c : Thread nD τ) scM0_0 fullShare ((outsAt0 m c n hn).2.2.1) ∗ owns (c : Thread nD τ) scM0_1 fullShare ((outsAt0 m c n hn).2.2.2)) := rfl
theorem PhiS_pos (c : Dev nD) (n : ℕ) (h : n ≤ cfg0.N) (hz : n ≠ 0) :
    PhiS m c n h = iprop(owns (c : Thread nD τ) scM0_0 fullShare ((outsAt0 m c (n - 1) (by omega)).2.2.1) ∗ owns (c : Thread nD τ) scM0_1 fullShare ((outsAt0 m c (n - 1) (by omega)).2.2.2)) := by
  cases n with
  | zero => exact absurd rfl hz
  | succ n => rfl

/-! ## The pipeline's proof data -/

/-- The arrays as the region finds them; after the body each input's buffer at its block and the outputs' at `outsAt0`;
    the invariant `PhiS`; nothing owed. The matrix is read through two windows (row blocks and column blocks), each
    holding one half of it; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' memrefs hold their blocks; the closed forms of the two conditions say which case
    the point is in; the invariant hands the body the scratches at what the point before left (at anything before the
    first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [outsAt0_A m c t h0 h1]
      unfold sout0_A_0 sout0_A_1; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) hc1' (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) hc1' (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hc0' : ¬cond0_0 (grid0.coords t) := fun h => h0 ((hcond0_0 t).mp h)
    have hz : t.val ≠ 0 := fun hz => h0 (by rw [hz])
    by_cases h1 : t.val % 8 = 7
    · have hc1' : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1'], after0_4]
      rw [show (dats m 0 c).leavesExact 5 t = owns (c : Thread nD τ) (ms0_5 t) fullShare ((dats m 0 c).after 5 t) from by
        unfold Dat.leavesExact; rw [liveAt0_5 t hc1'], after0_5]
      rw [outsAt0_C m c t h0 h1]
      unfold out0_C_4 out0_C_5 sout0_C_0 sout0_C_1; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ hc0' hc1' (iblk m c 0 t) (iblk m c 1 t) (iblk m c 2 t) (iblk m c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        · unfold owns; iexists _; isplitr
          swap; · iexact H5
          ipureintro; exact View.read_writes_of_cover _ _ _ _ _ (cover0_C_5 c _ _ _ _ _ _ _ _ _ _ _ _ _ _ _ _ _ _ _ _ _ _ _ _ _)
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [outsAt0_B m c t h0 h1]
      unfold sout0_B_0 sout0_B_1; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ hc0' hc1' (iblk m c 0 t) (iblk m c 1 t) (iblk m c 2 t) (iblk m c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KI.Launch.lean ====
/-
  The launch of the mining kernel's region and the lines after it. The matrix is handed to the kernel through two
  input windows, so its buffer is dealt to them half and half at the region's entry; the lines after the region read
  only the two outputs and the buffers that bypass the region, so they run holding those alone.
-/
import proofs.«108540_j67207648247978_2_alg».proof.Proof.KI.Body

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entry: the arrays' buffers dealt to the windows -/

/-- The five distinct buffers behind the six windows' arrays, listed. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg0) ↦{fullShare} Vc main_arg0) ∗ (((c : Thread nD τ).loc main_v0) ↦{fullShare} Vc main_v0) ∗ (((c : Thread nD τ).loc main_v1) ↦{fullShare} Vc main_v1) ∗ (((c : Thread nD τ).loc main_v2_0) ↦{fullShare} Vc main_v2_0) ∗ (((c : Thread nD τ).loc main_v2_1) ↦{fullShare} Vc main_v2_1)) := by
  unfold Pipeline.arrBufs
  exact bigSep_eq_bigSepL_of_eq [main_arg0, main_v0, main_v1, main_v2_0, main_v2_1] (by decide) (by decide) _

theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- The proof data's arrays, window by window. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v2_0) ↦{fullShare} G 4) ∗ (((c : Thread nD τ).loc main_v2_1) ↦{fullShare} G 5)) := by
  unfold Dat.arrays
  rw [bigSep_W0, (arr_whole0 0).set_eq_univ, (arr_whole0 2).set_eq_univ, (arr_whole0 3).set_eq_univ, (arr_whole0 4).set_eq_univ, (arr_whole0 5).set_eq_univ,
    share0_0, share0_1, share0_2, share0_3, share0_4, share0_5]

/-- ENTRY: the matrix's buffer is split between its two windows; every other array goes to its one window whole. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨HA, H2, H3, H4, H5⟩
  ihave HA := (pointsTo_share (PosShare.mem_left_op_right fullShare)).1 $$ HA
  icases HA with ⟨HA0, HA1⟩
  isplitl [HA0]; · iexact HA0
  isplitl [HA1]; · iexact HA1
  isplitl [H2]; · iexact H2
  isplitl [H3]; · iexact H3
  isplitl [H4]; · iexact H4
  iexact H5

/-! ## The invariant at the region's ends -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_owns]

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_owns]
  iintro ⟨HS0, HS1⟩
  isplitl [HS0]
  · iexists _; iexact HS0
  · iexists _; iexact HS1

/-! ## The lines after the region -/

/-- The buffers the lines after the region touch: the two outputs and the buffers that bypass the region. -/
def tailSet : Finset (DevRef τ sig) :=
  insert (Proc.devRef .tc main_v2_0) (insert (Proc.devRef .tc main_v2_1)
    ((Pipeline.restRefs sig spec0).map ⟨Proc.devRef (sig := sig) (.tc : Proc τ), Proc.devRef_injective _⟩))

theorem mem_tailSet {r : Ref sig .tc} (h : r = main_v2_0 ∨ r = main_v2_1 ∨ r ∈ Pipeline.restRefs sig spec0) :
    Proc.devRef .tc r ∈ (tailSet : Finset (DevRef τ sig)) := by
  rcases h with rfl | rfl | h
  · exact Finset.mem_insert_self _ _
  · exact Finset.mem_insert_of_mem (Finset.mem_insert_self _ _)
  · exact Finset.mem_insert_of_mem (Finset.mem_insert_of_mem (Finset.mem_map_of_mem _ h))

theorem v2_0_not_rest : main_v2_0 ∉ Pipeline.restRefs sig spec0 := by decide
theorem v2_1_not_rest : main_v2_1 ∉ Pipeline.restRefs sig spec0 := by decide

/-- Every operation after the region reads and writes only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl | rfl | rfl
  all_goals
    simp only [StableHlo.reshape_bufs, StableHlo.binary_bufs, StableHlo.unary_bufs, StableHlo.nullary_bufs, Finset.insert_subset_iff, Finset.singleton_subset_iff]
    repeat' apply And.intro
  all_goals exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Those buffers held at a valuation: the two outputs, and the bypassing buffers. -/
theorem held_tailSet (c : Dev nD) (W : Valuation τ sig (Elt F)) :
    (StableHlo.held (c.tc : Thread nD τ) tailSet W : sProp 𝕄)
      = iprop((((c : Thread nD τ).loc main_v2_0) ↦{fullShare} W (Proc.devRef .tc main_v2_0)) ∗ (((c : Thread nD τ).loc main_v2_1) ↦{fullShare} W (Proc.devRef .tc main_v2_1))
          ∗ Pipeline.unscopedRest (Ix := Unit) (Name := ℕ) (U := UR sig nD τ) (Lvl := ℕ) spec0 c (fun b => W (Proc.devRef .tc b))) := by
  unfold StableHlo.held tailSet Pipeline.unscopedRest
  rw [bigSep_insert (fun h => by
      rcases Finset.mem_insert.mp h with h | h
      · exact StableHlo.devRef_ne_of_ne (by decide) h
      · obtain ⟨b, hb, e⟩ := Finset.mem_map.mp h
        exact v2_0_not_rest (Proc.devRef_injective _ e ▸ hb)),
    bigSep_insert (fun h => by
      obtain ⟨b, hb, e⟩ := Finset.mem_map.mp h
      exact v2_1_not_rest (Proc.devRef_injective _ e ▸ hb)),
    bigSep_map]
  rfl

/-- The buffers' contents at the region's exit: the two outputs at what the write-backs left, the rest as at entry. -/
def Wexit (c : Dev nD) : Valuation τ sig (Elt F) :=
  Function.update (Function.update (V0 m c) (Proc.devRef .tc main_v2_0) ((dats m 0 c).arrAt 4 cfg0.N))
    (Proc.devRef .tc main_v2_1) ((dats m 0 c).arrAt 5 cfg0.N)

/-- The buffers' contents at the program's end: the lines after the region run from the exit contents. -/
def Vout (c : Dev nD) (b : Ref sig .tc) : Buf (Elt F) ((c : Thread nD τ).loc b) :=
  StableHlo.after (List.flatten [hostOps1]) (Wexit m c) (Proc.devRef .tc b)

theorem Wexit_4 (c : Dev nD) : Wexit m c (Proc.devRef .tc main_v2_0) = (dats m 0 c).arrAt 4 cfg0.N := by
  unfold Wexit
  rw [Function.update_of_ne (StableHlo.devRef_ne_of_ne (by decide)), Function.update_self]
theorem Wexit_5 (c : Dev nD) : Wexit m c (Proc.devRef .tc main_v2_1) = (dats m 0 c).arrAt 5 cfg0.N := by
  unfold Wexit
  rw [Function.update_self]
theorem Wexit_rest (c : Dev nD) (b : Ref sig .tc) (hb : b ∈ Pipeline.restRefs sig spec0) :
    Wexit m c (Proc.devRef .tc b) = V m c b := by
  unfold Wexit
  rw [Function.update_of_ne (StableHlo.devRef_ne_of_ne (fun e : b = main_v2_1 => v2_1_not_rest (by rw [← e]; exact hb))),
    Function.update_of_ne (StableHlo.devRef_ne_of_ne (fun e : b = main_v2_0 => v2_0_not_rest (by rw [← e]; exact hb)))]

theorem unscopedRest_Wexit (c : Dev nD) :
    (Pipeline.unscopedRest (Ix := Unit) (Name := ℕ) (U := UR sig nD τ) (Lvl := ℕ) spec0 c (fun b => Wexit m c (Proc.devRef .tc b)) : sProp 𝕄)
      = Pipeline.unscopedRest (Ix := Unit) (Name := ℕ) (U := UR sig nD τ) (Lvl := ℕ) spec0 c (V m c) := by
  unfold Pipeline.unscopedRest
  exact bigSep_congr fun b hb => by dsimp only; rw [Wexit_rest m c b hb]

/-- No line after the region writes an output array: they end at what the write-backs left. -/
theorem after_4 (c : Dev nD) :
    StableHlo.after (List.flatten [hostOps1]) (Wexit m c) (Proc.devRef .tc main_v2_0) = (dats m 0 c).arrAt 4 cfg0.N := by
  rw [StableHlo.after_of_forall_not_mem (b := Proc.devRef .tc main_v2_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_4]
theorem after_5 (c : Dev nD) :
    StableHlo.after (List.flatten [hostOps1]) (Wexit m c) (Proc.devRef .tc main_v2_1) = (dats m 0 c).arrAt 5 cfg0.N := by
  rw [StableHlo.after_of_forall_not_mem (b := Proc.devRef .tc main_v2_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_5]

/-- At the region's exit the two outputs at what the write-backs left and the bypassing buffers as at entry are the
    tail's buffers held at the exit contents. -/
theorem held_exit (c : Dev nD) :
    iprop((((c : Thread nD τ).loc main_v2_0) ↦{fullShare} (dats m 0 c).arrAt 4 cfg0.N) ∗ (((c : Thread nD τ).loc main_v2_1) ↦{fullShare} (dats m 0 c).arrAt 5 cfg0.N)
        ∗ Pipeline.unscopedRest (Ix := Unit) (Name := ℕ) (U := UR sig nD τ) (Lvl := ℕ) spec0 c (V m c))
      ⊢ (StableHlo.held (c.tc : Thread nD τ) tailSet (Wexit m c) : sProp 𝕄) := by
  rw [held_tailSet, Wexit_4, Wexit_5, unscopedRest_Wexit]

/-- After the lines: the two outputs still at what the write-backs left, the bypassing buffers at the lines' results. -/
theorem tail_back (c : Dev nD) :
    iprop(boundary (c.tc : Thread nD τ) ∗ (StableHlo.held (c.tc : Thread nD τ) tailSet (StableHlo.after (List.flatten [hostOps1]) (Wexit m c)) : sProp 𝕄))
      ⊢ iprop((((c : Thread nD τ).loc main_v2_0) ↦{fullShare} (dats m 0 c).arrAt 4 cfg0.N) ∗ (((c : Thread nD τ).loc main_v2_1) ↦{fullShare} (dats m 0 c).arrAt 5 cfg0.N)
        ∗ Pipeline.unscopedRest (Ix := Unit) (Name := ℕ) (U := UR sig nD τ) (Lvl := ℕ) spec0 c (Vout m c)) := by
  rw [held_tailSet, after_4, after_5]
  unfold Vout
  iintro ⟨-, H⟩
  iexact H

set_option backward.isDefEq.respectTransparency.types false in
/-- The lines after the region, from its exit: they run holding the two outputs and the bypassing buffers, and hand
    back the arrays as the region left them and the bypassing buffers at the lines' results. -/
theorem htail (c : Dev nD) (Q' : PUnit → sProp 𝕄) :
    iprop((iprop((dats m 0 c).arrays ((dats m 0 c).arrAt · cfg0.N) ∗ Pipeline.unscopedRest (Ix := Unit) (Name := ℕ) (U := UR sig nD τ) (Lvl := ℕ) spec0 c (Vout m c)) -∗ Q' ⟨⟩)
        ∗ boundary (c.tc : Thread nD τ) ∗ (dats m 0 c).arrays ((dats m 0 c).arrAt · cfg0.N) ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  rw [arrays0_eq]
  show _ ⊢ wp frame _ Set.univ (Pipeline.chain (([hostOps1] : List (List (HloOp τ sig (Elt F)))).map StableHlo.seq ++ [])) Q'
  have hp : ∀ Q' : PUnit → sProp 𝕄, iprop(|={Set.univ}=> Q' ⟨⟩)
      ⊢ wp frame (wpE (Pipeline.defs (fun q => Cfg.toPCfg (Val := Elt F) (cfgs q)) defs₀) (Variants.lift Variants.none) (c.tc : Thread nD τ) none) Set.univ
          (Pipeline.chain []) Q' := fun Q' => by
    rw [Pipeline.chain_nil, wp_pure]
  iintro ⟨Hk, Hb, ⟨HA0, HA1, H2, H3, H4, H5⟩, HZ⟩
  ihave HH := (held_exit m c) $$ [H4 H5 HZ]
  · isplitl [H4]; · iexact H4
    isplitl [H5]; · iexact H5
    iexact HZ
  iapply (Pipeline.wp_seqs_then (fun q => Cfg.toPCfg (Val := Elt F) (cfgs q)) defs₀ Variants.none c tailSet [] [hostOps1] tail_sub tail_fresh (Wexit m c)) $$ [Hb HH]
  · isplitl [Hb]; · iexact Hb
    iexact HH
  iintro Hb
  ihave HB := (tail_back m c) $$ Hb
  icases HB with ⟨H4, H5, HZ⟩
  iapply (hp Q')
  imodintro
  iapply Hk
  isplitr [HZ]
  · isplitl [HA0]; · iexact HA0
    isplitl [HA1]; · iexact HA1
    isplitl [H2]; · iexact H2
    isplitl [H3]; · iexact H3
    isplitl [H4]; · iexact H4
    iexact H5
  · iexact HZ

/-! ## The run -/

set_option backward.isDefEq.respectTransparency.types false in
/-- Every weakly fair execution of the program terminates; every array of the pipeline ends at what the write-backs
    leave in it, every other unscoped buffer at what the lines after the region leave (`Vout`). -/
theorem run_main : θ_run defs (onTc (τ := τ) (main (F := F))) (s₀ m ρ) (Pipeline.FramePost cfgs (dats m) 0 (Vout m)) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vout m c))
    (hX := fun c => by
      rw [Pipeline.unscopedRestP_none]
      iintro HU
      isplitr; · iempintro
      iexact HU)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin m c))
    (hout := fun c => (hout m c).trans (by
      iintro HR
      isplitr; · iempintro
      iexact HR))
    (htail := htail m)
    (QY := fun c s => ∀ b ∈ Pipeline.restRefs sig spec0, s.mem ((c.tc : Thread nD τ).loc b) = Vout m c b)
    (hY := fun c s' => by
      iintro ⟨-, HU, HSI⟩
      unfold Pipeline.unscopedRest
      imodintro
      iapply (pointsTo_read_all (Pipeline.restRefs sig spec0) (fun b => (c.tc : Thread nD τ).loc b) (Vout m c) s')
      isplitl [HU] <;> iassumption)
    (hQ := fun s h c => ⟨(h c).1, (h c).2.2⟩)

/-- info: 'Cert.KernelIdeal.Frame.run_main' depends on axioms: [propext, Classical.choice, Quot.sound] -/
#guard_msgs in #print axioms run_main

/-- No line after the region writes the label vector. -/
theorem Vout_main_arg1 (c : Dev nD) : Vout m c main_arg1 = m ((c : Thread nD τ).loc main_arg1) := by
  unfold Vout
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))), Wexit_rest m c main_arg1 (by decide)]
  exact V_main_arg1 m c

/-- The frame: every weakly fair execution terminates without a fault and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
    ((h c).2 main_arg1 (by decide)).trans (Vout_main_arg1 m c)⟩) (run_main m ρ)

end Cert.KernelIdeal.Frame

end
-- ==== Proof.Spec.lean ====
/-
  Hardest-positive / hardest-negative mining over the extended reals: the functions both programs compute.

  For a matrix `x` of 4096 rows and labels `y`, the clamped squared distance of rows `i`, `j` is
  `d2 i j = max ((|x_i|² + |x_j|²) − 2·⟨x_i, x_j⟩) 0`. One program takes, per row `i`, the maximum of `d2 i j` over
  the columns `j` with `y j = y i` (the minimum over those with `y j ≠ y i`), column block by column block
  (8 blocks of 512), and only then the square root of its clamp at 0; the other takes the square root entry by entry
  (spelt with a guard at 0) and then one maximum (minimum) over all 4096 columns. Both end with the same mean hinge.
-/
import Idealize.ShloMosaic.PureOps.Ideal
import Idealize.ShloMosaic.Lib.ValueIdx

noncomputable section

open scoped BigOperators

namespace Cert.Mining

open Idealize.ShloMosaic Idealize.ShloMosaic.ValueIdx

/-- The matrix's shape and the label vector's. -/
abbrev SX : Shape := ⟨2, ![4096, 2048]⟩
abbrev SY : Shape := ⟨1, ![4096]⟩
abbrev S0 : Shape := ⟨0, ![]⟩

/-- The squared norm of row `i`. -/
def sqn (x : SX.Idx → EReal) (i : Fin 4096) : EReal := ∑ k : Fin 2048, x (ix2 i k) * x (ix2 i k)

/-- The inner product of rows `i` and `j`. -/
def gram (x : SX.Idx → EReal) (i j : Fin 4096) : EReal := ∑ k : Fin 2048, x (ix2 i k) * x (ix2 j k)

/-- The clamped squared distance of rows `i` and `j` (the factor is the word of 2.0, the clamp is at the real 0). -/
def d2 (x : SX.Idx → EReal) (i j : Fin 4096) : EReal :=
  max ((sqn x i + sqn x j) - Ideal.ofBits .f32 0x40000000#32 * gram x i j) 0

/-- Column `c` of column block `b`. -/
def col (b : Fin 8) (c : Fin 512) : Fin 4096 := ⟨512 * b.val + c.val, by have := b.isLt; have := c.isLt; omega⟩

/-- Block `b`'s contribution to row `i`'s hardest positive: the maximum of `d2` over the block's same-label columns. -/
def blkMax (x : SX.Idx → EReal) (y : SY.Idx → BitVec 32) (i : Fin 4096) (b : Fin 8) : EReal :=
  (Finset.univ : Finset (Fin 512)).fold max ⊥ fun c => if y (ix1 i) = y (ix1 (col b c)) then d2 x i (col b c) else ⊥

/-- Block `b`'s contribution to row `i`'s hardest negative: the minimum of `d2` over the block's other-label columns. -/
def blkMin (x : SX.Idx → EReal) (y : SY.Idx → BitVec 32) (i : Fin 4096) (b : Fin 8) : EReal :=
  (Finset.univ : Finset (Fin 512)).fold min ⊤ fun c => if y (ix1 i) = y (ix1 (col b c)) then ⊤ else d2 x i (col b c)

/-- The running maximum after the first `n` column blocks. -/
def posUpTo (x : SX.Idx → EReal) (y : SY.Idx → BitVec 32) (i : Fin 4096) (n : ℕ) : EReal :=
  (Finset.univ.filter fun b : Fin 8 => b.val < n).fold max ⊥ (blkMax x y i)

/-- The running minimum after the first `n` column blocks. -/
def negUpTo (x : SX.Idx → EReal) (y : SY.Idx → BitVec 32) (i : Fin 4096) (n : ℕ) : EReal :=
  (Finset.univ.filter fun b : Fin 8 => b.val < n).fold min ⊤ (blkMin x y i)

/-- Block by block, then the root: the hardest positive distance of row `i`. -/
def apK (x : SX.Idx → EReal) (y : SY.Idx → BitVec 32) (i : Fin 4096) : EReal := Ideal.sqrt (max (posUpTo x y i 8) 0)

/-- Block by block, then the root: the hardest negative distance of row `i`. -/
def anK (x : SX.Idx → EReal) (y : SY.Idx → BitVec 32) (i : Fin 4096) : EReal := Ideal.sqrt (max (negUpTo x y i 8) 0)

/-- The guarded root of a clamped squared distance: `√d` where `d > 0`, and `0` at `0` (the inner guard's
    replacement value is the word of 1.0; it is never read). -/
def dist (x : SX.Idx → EReal) (i j : Fin 4096) : EReal :=
  if 0 < d2 x i j then Ideal.sqrt (if 0 < d2 x i j then d2 x i j else Ideal.ofBits .f32 0x3F800000#32) else 0

/-- Entry by entry, then one maximum: the hardest positive distance of row `i`. -/
def apR (x : SX.Idx → EReal) (y : SY.Idx → BitVec 32) (i : Fin 4096) : EReal :=
  (Finset.univ : Finset (Fin 4096)).fold max ⊥ fun j => if y (ix1 i) = y (ix1 j) then dist x i j else ⊥

/-- Entry by entry, then one minimum: the hardest negative distance of row `i`. -/
def anR (x : SX.Idx → EReal) (y : SY.Idx → BitVec 32) (i : Fin 4096) : EReal :=
  (Finset.univ : Finset (Fin 4096)).fold min ⊤ fun j => if y (ix1 i) = y (ix1 j) then ⊤ else dist x i j

/-- The mean hinge both programs end with: `(0 + Σ_i max ((ap_i − an_i) + 0.3) 0) / 4096`, in the host's operations
    (the words are those of 0.3, 0, 0 and 4096). -/
def hinge (hb : S0.BroadcastsInDim SY (![] : Fin 0 → Fin SY.rank)) (hr : SY.ReducesTo [0] S0) (h0 : 0 < S0.numel)
    (ap an : FVec Ideal SY .f32) : FVec Ideal S0 .f32 :=
  Host.divf (F := Ideal)
    (Host.reduceAdd (F := Ideal)
      (maximumf (addf (subf ap an) (broadcastInDim SY ![] hb (constant (F := Ideal) S0 .f32 0x3E99999A#32)))
        (broadcastInDim SY ![] hb (constant (F := Ideal) S0 .f32 0x00000000#32)))
      (constant (F := Ideal) S0 .f32 0x00000000#32) hr h0)
    (constant (F := Ideal) S0 .f32 0x45800000#32)

end Cert.Mining

end
-- ==== Proof.KI.Tail.lean ====
/-
  The program's result over the extended reals: the lines after the region are the mean hinge of the two output
  arrays, each read as a vector of 4096 entries.
-/
import proofs.«108540_j67207648247978_2_alg».proof.Proof.KI.Launch
import proofs.«108540_j67207648247978_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The program's result is the mean hinge of the two output arrays. -/
theorem Vout_v11 (c : Dev nD) :
    Vout (F := Ideal) m c main_v11
      = Cert.Mining.hinge bcast_S_S4096 reducesTo_S4096_S_d0 h_S_
          (shapeCast S4096 ((dats (F := Ideal) m 0 c).arrAt 4 cfg0.N) shapeCasts_S4096x1_S4096)
          (shapeCast S4096 ((dats (F := Ideal) m 0 c).arrAt 5 cfg0.N) shapeCasts_S4096x1_S4096) := by
  unfold Vout
  show StableHlo.after hostOps1 _ (Proc.devRef .tc main_v11) = _
  after_results
  rw [Wexit_4, Wexit_5]
  rfl

end Cert.KernelIdeal.Frame

end
-- ==== Proof.MiningLaw.lean ====
/-
  Block by block and then the root, or the root entry by entry and then one fold: the two ways of mining the hardest
  positive and the hardest negative distance of a row agree, on all of the extended reals.

  Write `rootClamp z = √(max z 0)`. It is monotone on the whole extended line, so it commutes with a finite fold of
  `max` and of `min`. It sends `⊤` to `⊤` and `⊥` to `0`, and on a nonnegative `d` it is the guarded root of `Spec`.
  A fold over 8 blocks of a fold over 512 columns is one fold over the 4096 columns, every column being
  `col b c` for some `b`, `c`. On the minimum side this is all. On the maximum side the image of the fold's unit `⊥`
  is `0`, not `⊥`; the difference is invisible because column `i` itself has the label of row `i` and contributes a
  nonnegative distance.
-/
import proofs.«108540_j67207648247978_2_alg».proof.Proof.Spec

noncomputable section

namespace Cert.Mining

open Idealize.ShloMosaic Idealize.ShloMosaic.ValueIdx

/-! ### The root of the clamp at zero -/

/-- The root of the clamp at `0`. -/
def rootClamp (z : EReal) : EReal := Ideal.sqrt (max z 0)

theorem sqrt_zero_eq : Ideal.sqrt (0 : EReal) = 0 := by
  rw [← EReal.coe_zero, Ideal.sqrt_coe]
  simp

/-- The root is monotone on the nonnegative half line. -/
theorem sqrt_le_sqrt_of_nonneg {a b : EReal} (ha : 0 ≤ a) (hab : a ≤ b) : Ideal.sqrt a ≤ Ideal.sqrt b := by
  induction a with
  | bot => exact absurd ha (by simp)
  | top => rw [top_le_iff.mp hab]
  | coe r =>
    induction b with
    | bot => exact absurd hab (by simp)
    | top => simp
    | coe s =>
      have hr : 0 ≤ r := by exact_mod_cast ha
      have hrs : r ≤ s := by exact_mod_cast hab
      have hs : 0 ≤ s := hr.trans hrs
      rw [Ideal.sqrt_coe, Ideal.sqrt_coe, if_neg (not_lt.mpr hr), if_neg (not_lt.mpr hs)]
      exact_mod_cast Real.sqrt_le_sqrt hrs

theorem rootClamp_mono : Monotone rootClamp := fun a b hab =>
  sqrt_le_sqrt_of_nonneg (le_max_right a 0) (max_le_max hab le_rfl)

theorem rootClamp_bot : rootClamp ⊥ = 0 := by
  unfold rootClamp
  rw [max_eq_right bot_le, sqrt_zero_eq]

theorem rootClamp_top : rootClamp ⊤ = ⊤ := by
  unfold rootClamp
  rw [max_eq_left le_top, Ideal.sqrt_top]

theorem rootClamp_nonneg (z : EReal) : 0 ≤ rootClamp z := by
  rw [← rootClamp_bot]
  exact rootClamp_mono bot_le

/-- On a nonnegative argument the root of the clamp is the guarded root. -/
theorem rootClamp_of_nonneg {d : EReal} (hd : 0 ≤ d) (w : EReal) :
    rootClamp d = if 0 < d then Ideal.sqrt (if 0 < d then d else w) else 0 := by
  unfold rootClamp
  rw [max_eq_left hd]
  by_cases h : 0 < d
  · rw [if_pos h, if_pos h]
  · rw [if_neg h, le_antisymm (not_lt.mp h) hd, sqrt_zero_eq]

theorem d2_nonneg (x : SX.Idx → EReal) (i j : Fin 4096) : 0 ≤ d2 x i j := le_max_right _ _

theorem rootClamp_d2 (x : SX.Idx → EReal) (i j : Fin 4096) : rootClamp (d2 x i j) = dist x i j :=
  rootClamp_of_nonneg (d2_nonneg x i j) _

theorem dist_nonneg (x : SX.Idx → EReal) (i j : Fin 4096) : 0 ≤ dist x i j := by
  rw [← rootClamp_d2]
  exact rootClamp_nonneg _

/-! ### A monotone map and a fold -/

theorem map_fold_max {ι : Type*} {m : EReal → EReal} (hm : Monotone m) (s : Finset ι) (b : EReal) (g : ι → EReal) :
    m (s.fold max b g) = s.fold max (m b) fun j => m (g j) :=
  (Finset.fold_hom (op := max) (op' := max) (m := m) fun _ _ => hm.map_max).symm

theorem map_fold_min {ι : Type*} {m : EReal → EReal} (hm : Monotone m) (s : Finset ι) (b : EReal) (g : ι → EReal) :
    m (s.fold min b g) = s.fold min (m b) fun j => m (g j) :=
  (Finset.fold_hom (op := min) (op' := min) (m := m) fun _ _ => hm.map_min).symm

/-! ### Eight blocks of 512 columns are the 4096 columns -/

theorem col_surj (j : Fin 4096) : ∃ b c, col b c = j := by
  refine ⟨⟨j.val / 512, ?_⟩, ⟨j.val % 512, Nat.mod_lt _ (by norm_num)⟩, ?_⟩
  · have := j.isLt; omega
  · apply Fin.ext
    simp only [col]
    omega

theorem fold_max_blocks (h : Fin 4096 → EReal) :
    ((Finset.univ : Finset (Fin 8)).fold max ⊥ fun b => (Finset.univ : Finset (Fin 512)).fold max ⊥ fun c => h (col b c))
      = (Finset.univ : Finset (Fin 4096)).fold max ⊥ h := by
  apply eq_of_forall_ge_iff
  intro z
  simp only [Finset.fold_max_le, bot_le, true_and, Finset.mem_univ, forall_true_left]
  constructor
  · intro H j
    obtain ⟨b, c, rfl⟩ := col_surj j
    exact H b c
  · intro H b c
    exact H _

theorem fold_min_blocks (h : Fin 4096 → EReal) :
    ((Finset.univ : Finset (Fin 8)).fold min ⊤ fun b => (Finset.univ : Finset (Fin 512)).fold min ⊤ fun c => h (col b c))
      = (Finset.univ : Finset (Fin 4096)).fold min ⊤ h := by
  apply eq_of_forall_le_iff
  intro z
  simp only [Finset.le_fold_min, le_top, true_and, Finset.mem_univ, forall_true_left]
  constructor
  · intro H j
    obtain ⟨b, c, rfl⟩ := col_surj j
    exact H b c
  · intro H b c
    exact H _

theorem filter_lt_eight : (Finset.univ.filter fun b : Fin 8 => b.val < 8) = Finset.univ :=
  Finset.filter_true_of_mem fun b _ => b.isLt

/-- The running maximum after all eight blocks is one maximum over all columns. -/
theorem posUpTo_eight (x : SX.Idx → EReal) (y : SY.Idx → BitVec 32) (i : Fin 4096) :
    posUpTo x y i 8
      = (Finset.univ : Finset (Fin 4096)).fold max ⊥ fun j => if y (ix1 i) = y (ix1 j) then d2 x i j else ⊥ := by
  unfold posUpTo
  rw [filter_lt_eight]
  exact fold_max_blocks fun j => if y (ix1 i) = y (ix1 j) then d2 x i j else ⊥

/-- The running minimum after all eight blocks is one minimum over all columns. -/
theorem negUpTo_eight (x : SX.Idx → EReal) (y : SY.Idx → BitVec 32) (i : Fin 4096) :
    negUpTo x y i 8
      = (Finset.univ : Finset (Fin 4096)).fold min ⊤ fun j => if y (ix1 i) = y (ix1 j) then ⊤ else d2 x i j := by
  unfold negUpTo
  rw [filter_lt_eight]
  exact fold_min_blocks fun j => if y (ix1 i) = y (ix1 j) then ⊤ else d2 x i j

/-! ### The two laws -/

theorem anK_eq_anR (x : SX.Idx → EReal) (y : SY.Idx → BitVec 32) (i : Fin 4096) : anK x y i = anR x y i := by
  change rootClamp (negUpTo x y i 8) = anR x y i
  rw [negUpTo_eight, map_fold_min rootClamp_mono, rootClamp_top]
  unfold anR
  apply Finset.fold_congr
  intro j _
  by_cases h : y (ix1 i) = y (ix1 j)
  · rw [if_pos h, if_pos h, rootClamp_top]
  · rw [if_neg h, if_neg h, rootClamp_d2]

theorem apK_eq_apR (x : SX.Idx → EReal) (y : SY.Idx → BitVec 32) (i : Fin 4096) : apK x y i = apR x y i := by
  change rootClamp (posUpTo x y i 8) = apR x y i
  rw [posUpTo_eight, map_fold_max rootClamp_mono, rootClamp_bot]
  unfold apR
  -- the image of a masked entry is `0` where the other fold has `⊥`; column `i` hides the difference
  have key : ∀ j : Fin 4096, rootClamp (if y (ix1 i) = y (ix1 j) then d2 x i j else ⊥)
      = if y (ix1 i) = y (ix1 j) then dist x i j else 0 := by
    intro j
    by_cases h : y (ix1 i) = y (ix1 j)
    · rw [if_pos h, if_pos h, rootClamp_d2]
    · rw [if_neg h, if_neg h, rootClamp_bot]
  simp only [key]
  apply le_antisymm
  · rw [Finset.fold_max_le]
    have h0 : (0 : EReal) ≤ (Finset.univ : Finset (Fin 4096)).fold max ⊥
        fun j => if y (ix1 i) = y (ix1 j) then dist x i j else ⊥ := by
      rw [Finset.le_fold_max]
      refine Or.inr ⟨i, Finset.mem_univ _, ?_⟩
      rw [if_pos rfl]
      exact dist_nonneg x i i
    refine ⟨h0, fun j _ => ?_⟩
    by_cases h : y (ix1 i) = y (ix1 j)
    · rw [if_pos h, Finset.le_fold_max]
      refine Or.inr ⟨j, Finset.mem_univ _, ?_⟩
      rw [if_pos h]
    · rw [if_neg h]
      exact h0
  · rw [Finset.fold_max_le]
    refine ⟨bot_le, fun j _ => ?_⟩
    rw [Finset.le_fold_max]
    refine Or.inr ⟨j, Finset.mem_univ _, ?_⟩
    by_cases h : y (ix1 i) = y (ix1 j)
    · rw [if_pos h, if_pos h]
    · rw [if_neg h, if_neg h]
      exact bot_le

end Cert.Mining

end
-- ==== Proof.KI.Result.lean ====
/-
  The idealized kernel's result as the mean hinge of the hardest-positive and hardest-negative distances: the two
  output arrays, read as vectors, are those distances taken block by block, which are the ones taken entry by entry.
-/
import proofs.«108540_j67207648247978_2_alg».proof.Proof.KI.Tail
import proofs.«108540_j67207648247978_2_alg».proof.Proof.MiningLaw

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The program's result, given what the two output arrays end at. -/
theorem kernel_result (c : Dev nD)
    (h4 : ∀ i : Fin 4096, (dats (F := Ideal) m 0 c).arrAt 4 cfg0.N (ix2 i (0 : Fin 1))
      = Cert.Mining.apK (m ((c.tc : Thread nD τ).loc main_arg0)) (m ((c.tc : Thread nD τ).loc main_arg1)) i)
    (h5 : ∀ i : Fin 4096, (dats (F := Ideal) m 0 c).arrAt 5 cfg0.N (ix2 i (0 : Fin 1))
      = Cert.Mining.anK (m ((c.tc : Thread nD τ).loc main_arg0)) (m ((c.tc : Thread nD τ).loc main_arg1)) i) :
    Vout (F := Ideal) m c main_v11
      = Cert.Mining.hinge bcast_S_S4096 reducesTo_S4096_S_d0 h_S_
          (fun j => Cert.Mining.apR (m ((c.tc : Thread nD τ).loc main_arg0)) (m ((c.tc : Thread nD τ).loc main_arg1)) (j 0))
          (fun j => Cert.Mining.anR (m ((c.tc : Thread nD τ).loc main_arg0)) (m ((c.tc : Thread nD τ).loc main_arg1)) (j 0)) := by
  rw [Vout_v11]
  refine congrArg₂ (Cert.Mining.hinge bcast_S_S4096 reducesTo_S4096_S_d0 h_S_) (funext fun j => ?_) (funext fun j => ?_)
  · rw [eq_ix1 j]
    exact (shapeCast_a1_a_apply _ _ _).trans ((h4 _).trans (Cert.Mining.apK_eq_apR _ _ _))
  · rw [eq_ix1 j]
    exact (shapeCast_a1_a_apply _ _ _).trans ((h5 _).trans (Cert.Mining.anK_eq_anR _ _ _))

end Cert.KernelIdeal.Frame

end
-- ==== Proof.PayValue.lean ====
/-
  The kernel body's payloads read at an index, at the ideal values.

  Each payload is a vector built from the values loaded before it. Read at one index it is an expression in the
  extended reals: the two accumulator initialisations are `⊥` and `⊤`; the two accumulator updates are a `max` and a
  `min`; the two final payloads are the root of the clamp at `0`; and the block payloads are, at row `r`, the maximum
  (minimum) over the block's 512 columns `c` of the clamped squared distance
  `max ((|x_r|² + |x'_c|²) − 2·⟨x_r, x'_c⟩) 0` masked by the equality of the two labels.

  The non-pointwise operations are read one at a time: a lane sum is a sum over the lane coordinate, a
  `[a] → [a, 1]` cast reads the entry of its row, a transpose swaps the coordinates, a broadcast along a unit axis
  reads that axis at `0`, a matrix product with one contracted axis is the sum over that axis of the products, and a
  lane maximum (minimum) is the fold of `max` (`min`) over the lane coordinate.
-/
import proofs.«108540_j67207648247978_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Words -/

/-- The word of `-∞` is `⊥`. -/
theorem ofBits_neg_inf : Ideal.ofBits .f32 0xFF800000#32 = ⊥ := by simp [Ideal.ofBits, Ideal.ieee]

/-- The word of `+∞` is `⊤`. -/
theorem ofBits_pos_inf : Ideal.ofBits .f32 0x7F800000#32 = ⊤ := by simp [Ideal.ofBits, Ideal.ieee]

/-- A select on the bit of an equality of words is the `if` on the equality. -/
theorem select_cmpi_eq {α : Type} (a b : BitVec 32) (X Y : α) :
    Scalar.select (IntOp.cmpi .eq a b) X Y = if a = b then X else Y := by
  show (if BitVec.ofBool (a == b) = 1#1 then X else Y) = _
  by_cases h : a = b
  · rw [if_pos h, if_pos]
    rw [beq_iff_eq.mpr h]
    rfl
  · rw [if_neg h, if_neg]
    rw [beq_eq_false_iff_ne.mpr h]
    decide

/-! ## Layout operations along a unit column axis -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The accumulators' payloads -/

theorem pay5_apply (j : S1024x1.Idx) : k0_pay5 (F := Ideal) j = ⊥ := by
  unfold k0_pay5
  rw [shapeCast_self]
  exact ofBits_neg_inf

theorem pay6_apply (j : S1024x1.Idx) : k0_pay6 (F := Ideal) j = ⊤ := by
  unfold k0_pay6
  rw [shapeCast_self]
  exact ofBits_pos_inf

theorem pay1_apply (v31 : FVec Ideal S1024x1 .f32) (v36 : Vec Ideal S1024x1 .f32) (j : S1024x1.Idx) :
    k0_pay1 (F := Ideal) v31 v36 j = max (v36 j) (v31 j) := by
  unfold k0_pay1
  rw [shapeCast_self]
  rfl

theorem pay2_apply (v35 : FVec Ideal S1024x1 .f32) (v41 : Vec Ideal S1024x1 .f32) (j : S1024x1.Idx) :
    k0_pay2 (F := Ideal) v35 v41 j = min (v41 j) (v35 j) := by
  unfold k0_pay2
  rw [shapeCast_self]
  rfl

theorem pay3_apply (v49 : Vec Ideal S1024x1 .f32) (j : S1024x1.Idx) :
    k0_pay3 (F := Ideal) v49 j = Ideal.sqrt (max (v49 j) 0) := by
  unfold k0_pay3
  show Ideal.sqrt (max (v49 j) (Ideal.ofBits .f32 0x00000000#32)) = _
  rw [Ideal.ofBits_zero_f32]

theorem pay4_apply (v54 : Vec Ideal S1024x1 .f32) (j : S1024x1.Idx) :
    k0_pay4 (F := Ideal) v54 j = Ideal.sqrt (max (v54 j) 0) := by
  unfold k0_pay4
  show Ideal.sqrt (max (v54 j) (Ideal.ofBits .f32 0x00000000#32)) = _
  rw [Ideal.ofBits_zero_f32]

/-! ## The clamped squared distances of a block -/

/-- The product's left operand index at output `i` and contraction index `q`: row `i 0` … -/
theorem lhsIdx_row (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl
/-- … and feature `q`. -/
theorem lhsIdx_feat (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
/-- The right operand index: row `i 1` … -/
theorem rhsIdx_row (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl
/-- … and feature `q`. -/
theorem rhsIdx_feat (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- A row of the left block against a row of the right block: the matrix product contracts the feature axis of both. -/
theorem matmul_entry (v3 : FVec Ideal S1024x2048 .f32) (v4 : FVec Ideal S512x2048 .f32) (r : Fin 1024) (c : Fin 512) :
    matmul dot_S1024x2048_S512x2048_S1024x512_1_1_0_0_n_n (some .fp32) v3 v4
        (constant (F := Ideal) S1024x512 .f32 0x00000000#32) (ix2 r c)
      = ∑ k : Fin 2048, v3 (ix2 r k) * v4 (ix2 c k) := by
  simp only [matmul]
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 r c)
      ((contrEquiv1 dot_S1024x2048_S512x2048_S1024x512_1_1_0_0_n_n 2048 rfl rfl).symm k) = ix2 r k :=
    funext fun a => Fin.ext (by
      match a with
      | ⟨0, _⟩ => exact lhsIdx_row _ _
      | ⟨1, _⟩ => exact (lhsIdx_feat _ _).trans hk)
  have er : dot_S1024x2048_S512x2048_S1024x512_1_1_0_0_n_n.rhsIdx (ix2 r c)
      ((contrEquiv1 dot_S1024x2048_S512x2048_S1024x512_1_1_0_0_n_n 2048 rfl rfl).symm k) = ix2 c k :=
    funext fun a => Fin.ext (by
      match a with
      | ⟨0, _⟩ => exact rhsIdx_row _ _
      | ⟨1, _⟩ => exact (rhsIdx_feat _ _).trans hk)
  rw [el, er]

/-- The lane sum of a `[1024, 2048]` vector at row `r`. -/
theorem rowSum_left (w : FVec Ideal S1024x2048 .f32) (hφ : FKind.Formats .f32)
    (hacc : (0x00000000#32 : BitVec 32) = FKind.add.neutral .f32 hφ) (r : Fin 1024) :
    multiReduction .add [1] S1024 w 0x00000000#32 reduces_S1024x2048_S1024 hφ hacc (ix1 r) = ∑ k : Fin 2048, w (ix2 r k) := by
  refine (Ideal.multiReduction_add_single w 0x00000000#32 reduces_S1024x2048_S1024 hφ hacc (ix1 r)).trans ?_
  refine Finset.sum_congr rfl fun k _ => congrArg w ?_
  funext a
  match a with
  | ⟨0, _⟩ => rfl
  | ⟨1, _⟩ => rfl

/-- The lane sum of a `[512, 2048]` vector at row `c`. -/
theorem rowSum_right (w : FVec Ideal S512x2048 .f32) (hφ : FKind.Formats .f32)
    (hacc : (0x00000000#32 : BitVec 32) = FKind.add.neutral .f32 hφ) (c : Fin 512) :
    multiReduction .add [1] S512 w 0x00000000#32 reduces_S512x2048_S512 hφ hacc (ix1 c) = ∑ k : Fin 2048, w (ix2 c k) := by
  refine (Ideal.multiReduction_add_single w 0x00000000#32 reduces_S512x2048_S512 hφ hacc (ix1 c)).trans ?_
  refine Finset.sum_congr rfl fun k _ => congrArg w ?_
  funext a
  match a with
  | ⟨0, _⟩ => rfl
  | ⟨1, _⟩ => rfl

/-- The clamped squared distance of row `r` of the left block and row `c` of the right block. -/
theorem pay7_apply (v3 : Vec Ideal S1024x2048 .f32) (v4 : Vec Ideal S512x2048 .f32) (r : Fin 1024) (c : Fin 512) :
    k0_pay7 (F := Ideal) v3 v4 (ix2 r c)
      = max (((∑ k : Fin 2048, v3 (ix2 r k) * v3 (ix2 r k)) + (∑ k : Fin 2048, v4 (ix2 c k) * v4 (ix2 c k)))
          - Ideal.ofBits .f32 0x40000000#32 * (∑ k : Fin 2048, v3 (ix2 r k) * v4 (ix2 c k))) 0 := by
  unfold k0_pay7
  refine congrArg₂ max (congrArg₂ HSub.hSub (congrArg₂ HAdd.hAdd ?_ ?_) (congrArg (HMul.hMul _) ?_)) Ideal.ofBits_zero_f32
  · refine (broadcastTo_a1_ab_apply _ _ r c).trans ?_
    refine (shapeCast_a_a1_apply _ _ r (0 : Fin 1)).trans ?_
    exact rowSum_left (mulf v3 v3) _ _ r
  · refine (broadcastTo_1b_ab_apply _ _ r c).trans ?_
    refine (transpose_ix2_apply _ _ (0 : Fin 1) c).trans ?_
    refine (shapeCast_a_a1_apply _ _ c (0 : Fin 1)).trans ?_
    exact rowSum_right (mulf v4 v4) _ _ c
  · exact matmul_entry v3 v4 r c

/-! ## The label mask of a block -/

/-- The mask at `(r, c)` is the bit of the equality of row `r`'s label and column `c`'s label. -/
theorem pay8_apply (v21 : Vec Ideal S1024x1 .i32) (v23 : Vec Ideal S1x512 .i32) (r : Fin 1024) (c : Fin 512) :
    k0_pay8 (F := Ideal) v21 v23 (ix2 r c) = IntOp.cmpi .eq (v21 (ix2 r (0 : Fin 1))) (v23 (ix2 (0 : Fin 1) c)) := by
  unfold k0_pay8
  refine congrArg₂ (IntOp.cmpi .eq) ?_ ?_
  · refine (broadcastTo_a1_ab_apply _ _ r c).trans ?_
    exact congrFun (shapeCast_self v21 _) _
  · refine (broadcastTo_1b_ab_apply _ _ r c).trans ?_
    exact congrFun (shapeCast_self v23 _) _

/-! ## The lane maximum and minimum of a block -/

/-- The lane maximum of a `[1024, 512]` vector at row `r`: the fold of `max` from `⊥` over the columns. -/
theorem rowMax (w : FVec Ideal S1024x512 .f32) (hφ : FKind.Formats .f32)
    (hacc : (0xFF800000#32 : BitVec 32) = FKind.maximumf.neutral .f32 hφ) (r : Fin 1024) :
    multiReduction .maximumf [1] S1024 w 0xFF800000#32 reduces_S1024x512_S1024 hφ hacc (ix1 r)
      = (Finset.univ : Finset (Fin 512)).fold max ⊥ fun c => w (ix2 r c) := by
  refine (Ideal.multiReduction_maximumf_single w 0xFF800000#32 reduces_S1024x512_S1024 hφ hacc (ix1 r)).trans ?_
  show (Finset.univ : Finset (Fin 512)).fold max (Ideal.ofBits .f32 0xFF800000#32)
    (fun c => w (reduces_S1024x512_S1024.lift (ix1 r) c)) = _
  rw [ofBits_neg_inf]
  refine Finset.fold_congr fun c _ => congrArg w ?_
  funext a
  match a with
  | ⟨0, _⟩ => rfl
  | ⟨1, _⟩ => rfl

/-- The lane minimum of a `[1024, 512]` vector at row `r`: the fold of `min` from `⊤` over the columns. -/
theorem rowMin (w : FVec Ideal S1024x512 .f32) (hφ : FKind.Formats .f32)
    (hacc : (0x7F800000#32 : BitVec 32) = FKind.minimumf.neutral .f32 hφ) (r : Fin 1024) :
    multiReduction .minimumf [1] S1024 w 0x7F800000#32 reduces_S1024x512_S1024 hφ hacc (ix1 r)
      = (Finset.univ : Finset (Fin 512)).fold min ⊤ fun c => w (ix2 r c) := by
  refine (multiReduction_minimumf_eq_fold w 0x7F800000#32 reduces_S1024x512_S1024 hφ hacc (ix1 r)).trans ?_
  refine (reduces_S1024x512_S1024.fold_filter_drop_single _ _ w (ix1 r)).trans ?_
  show (Finset.univ : Finset (Fin 512)).fold min (Ideal.ofBits .f32 0x7F800000#32)
    (fun c => w (reduces_S1024x512_S1024.lift (ix1 r) c)) = _
  rw [ofBits_pos_inf]
  refine Finset.fold_congr fun c _ => congrArg w ?_
  funext a
  match a with
  | ⟨0, _⟩ => rfl
  | ⟨1, _⟩ => rfl

/-! ## The block payloads -/

/-- Row `r`'s maximum over the block's same-label columns of the clamped squared distance. -/
theorem pay9_apply (v3 : Vec Ideal S1024x2048 .f32) (v4 : Vec Ideal S512x2048 .f32) (v21 : Vec Ideal S1024x1 .i32)
    (v23 : Vec Ideal S1x512 .i32) (r : Fin 1024) :
    k0_pay9 (F := Ideal) v3 v4 v21 v23 (ix2 r (0 : Fin 1))
      = (Finset.univ : Finset (Fin 512)).fold max ⊥ fun c =>
          if v21 (ix2 r (0 : Fin 1)) = v23 (ix2 (0 : Fin 1) c) then
            max (((∑ k : Fin 2048, v3 (ix2 r k) * v3 (ix2 r k)) + (∑ k : Fin 2048, v4 (ix2 c k) * v4 (ix2 c k)))
            - Ideal.ofBits .f32 0x40000000#32 * (∑ k : Fin 2048, v3 (ix2 r k) * v4 (ix2 c k))) 0
          else ⊥ := by
  unfold k0_pay9
  refine (shapeCast_a_a1_apply _ _ r (0 : Fin 1)).trans ?_
  refine (rowMax _ _ _ r).trans ?_
  refine Finset.fold_congr fun c _ => ?_
  refine (select_apply _ _ _ _).trans ?_
  rw [pay8_apply, pay7_apply, select_cmpi_eq]
  show (if _ then _ else Ideal.ofBits .f32 0xFF800000#32) = _
  rw [ofBits_neg_inf]

/-- Row `r`'s minimum over the block's other-label columns of the clamped squared distance. -/
theorem pay10_apply (v3 : Vec Ideal S1024x2048 .f32) (v4 : Vec Ideal S512x2048 .f32) (v21 : Vec Ideal S1024x1 .i32)
    (v23 : Vec Ideal S1x512 .i32) (r : Fin 1024) :
    k0_pay10 (F := Ideal) v3 v4 v21 v23 (ix2 r (0 : Fin 1))
      = (Finset.univ : Finset (Fin 512)).fold min ⊤ fun c =>
          if v21 (ix2 r (0 : Fin 1)) = v23 (ix2 (0 : Fin 1) c) then ⊤
          else
            max (((∑ k : Fin 2048, v3 (ix2 r k) * v3 (ix2 r k)) + (∑ k : Fin 2048, v4 (ix2 c k) * v4 (ix2 c k)))
            - Ideal.ofBits .f32 0x40000000#32 * (∑ k : Fin 2048, v3 (ix2 r k) * v4 (ix2 c k))) 0 := by
  unfold k0_pay10
  refine (shapeCast_a_a1_apply _ _ r (0 : Fin 1)).trans ?_
  refine (rowMin _ _ _ r).trans ?_
  refine Finset.fold_congr fun c _ => ?_
  refine (select_apply _ _ _ _).trans ?_
  rw [pay8_apply, pay7_apply, select_cmpi_eq]
  show (if _ then Ideal.ofBits .f32 0x7F800000#32 else _) = _
  rw [ofBits_pos_inf]

end Cert.KernelIdeal.PayValue

end
-- ==== Proof.KI.ValuePieces.lean ====
/-
  What each case of the kernel's body leaves, as payloads of the blocks it was handed.

  At the first column block of a row block the running maximum is reset to `-∞` and then updated with the block's
  maximum, the running minimum reset to `+∞` and updated with the block's minimum. At every other column block each is
  updated from what the point before left. At the last column block the two outputs are, besides, the root of the clamp
  at `0` of the updated extremes. Every load and store of the body goes through a whole buffer, so each piece the run
  found is read back as the payload it was stored with.
-/
import proofs.«108540_j67207648247978_2_alg».proof.Proof.KI.Body
import proofs.«108540_j67207648247978_2_alg».proof.Proof.PayValue
import proofs.«108540_j67207648247978_2_alg».proof.Proof.Spec
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Mining

section Pieces
variable {F : FTy → Type} [FloatOps F]

/-- The zero offsets, however spelt. -/
theorem hz2 : (![0, 0] : Fin 2 → Nat) = fun _ => 0 := funext fun a => by fin_cases a <;> rfl

theorem sout_A_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) :
    sout0_A_0 c i arg2 harg2 arg3 harg3 arg4 harg4 arg5 harg5 arg6 harg6 arg7 harg7 arg8 harg8 arg9 harg9 hc0 hc1 x0 x1 x2 x3 = k0_pay1 (k0_pay9 x0 x1 x2 x3) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem sout_A_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x2048 .f32) (x1 : Vec F S512x2048 .f32) (x2 : Vec F S1024x1 .i32) (x3 : Vec F S1x512 .i32) :
    sout0_A_1 c i arg2 harg2 arg3 harg3 arg4 harg4 arg5 harg5 arg6 harg6 arg7 harg7 arg8 harg8 arg9 harg9 hc0 hc1 x0 x1 x2 x3 = k0_pay2 (k0_pay10 x0 x1 x2 x3) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem sout_B_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    sout0_B_0 c i arg2 harg2 arg3 harg3 arg4 harg4 arg5 harg5 arg6 harg6 arg7 harg7 arg8 harg8 arg9 harg9 hc0 hc1 x0 x1 x2 x3 xs0 xs1 = k0_pay1 (k0_pay9 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x1) hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem sout_B_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    sout0_B_1 c i arg2 harg2 arg3 harg3 arg4 harg4 arg5 harg5 arg6 harg6 arg7 harg7 arg8 harg8 arg9 harg9 hc0 hc1 x0 x1 x2 x3 xs0 xs1 = k0_pay2 (k0_pay10 x0 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x1) hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem sout_C_0 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    sout0_C_0 c i arg2 harg2 arg3 harg3 arg4 harg4 arg5 harg5 arg6 harg6 arg7 harg7 arg8 harg8 arg9 harg9 hc0 hc1 x0 x1 x2 x3 xs0 xs1 = k0_pay1 (k0_pay9 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem sout_C_1 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    sout0_C_1 c i arg2 harg2 arg3 harg3 arg4 harg4 arg5 harg5 arg6 harg6 arg7 harg7 arg8 harg8 arg9 harg9 hc0 hc1 x0 x1 x2 x3 xs0 xs1 = k0_pay2 (k0_pay10 x0 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem out_C_4 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    out0_C_4 c i arg2 harg2 arg3 harg3 arg4 harg4 arg5 harg5 arg6 harg6 arg7 harg7 arg8 harg8 arg9 harg9 hc0 hc1 x0 x1 x2 x3 xs0 xs1 = k0_pay3 (k0_pay1 (k0_pay9 x0 x1 x2 x3) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz2, View.readCov_unit_zero (S := S1024x1) _ hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

theorem out_C_5 (c : Dev nD) (i : grid0.Coords) (arg2 : Memref sig .tc .vmem S1024x2048 .f32) (harg2 : arg2.IsWhole) (arg3 : Memref sig .tc .vmem S512x2048 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x2048 .f32) (x1 : Vec F S512x2048 .f32) (x2 : Vec F S1024x1 .i32) (x3 : Vec F S1x512 .i32) (xs0 : Vec F S1024x1 .f32) (xs1 : Vec F S1024x1 .f32) :
    out0_C_5 c i arg2 harg2 arg3 harg3 arg4 harg4 arg5 harg5 arg6 harg6 arg7 harg7 arg8 harg8 arg9 harg9 hc0 hc1 x0 x1 x2 x3 xs0 xs1 = k0_pay4 (k0_pay2 (k0_pay10 x0 x1 x2 x3) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x1) hz2, View.readCov_unit_zero (S := S1024x1) _ hz2]
  simp only [View.readAt_eq_ld, harg2.read_unread, harg3.read_unread, harg4.read_unread, harg5.read_unread, harg8.read_unread, harg9.read_unread,
    View.ld_unit_zero (S := S1024x2048) hz2, View.ld_unit_zero (S := S512x2048) hz2, View.ld_unit_zero (S := S1024x1) hz2,
    View.ld_unit_zero (S := S1x512) hz2]

end Pieces

end Cert.KernelIdeal.Frame

end
-- ==== Proof.KI.ValueBlocks.lean ====
/-
  The four input blocks the kernel's body is handed at a grid point, read in coordinates.

  The grid has 32 points `t = 8·ib + jb`: `ib = t / 8` is the row block (1024 rows of the matrix and of the labels) and
  `jb = t % 8` the column block (512 rows of the same matrix, 512 labels). Row `r` of the row block is row
  `1024·ib + r` of the matrix; row `c` of the column block is row `512·jb + c`. The labels reach the kernel reshaped,
  as a column `[4096, 1]` and as a row `[1, 4096]`; entry `R` of either is label `R`.
-/
import proofs.«108540_j67207648247978_2_alg».proof.Proof.KI.ValuePieces
import proofs.«108540_j67207648247978_2_alg».proof.Proof.PayValue
import proofs.«108540_j67207648247978_2_alg».proof.Proof.Spec
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Mining

variable (m : (ℓ : Loc nD τ sig) → Buf (Elt Ideal) ℓ)

/-- The matrix as launched. -/
abbrev X (c : Dev nD) : Cert.Mining.SX.Idx → EReal := m ((c : Thread nD τ).loc main_arg0)
/-- The label vector as launched. -/
abbrev Y (c : Dev nD) : Cert.Mining.SY.Idx → BitVec 32 := m ((c : Thread nD τ).loc main_arg1)

/-- The block index of every window at every point, decided over the grid: the row block is `t / 8`, the column block
    `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The labels as a column, as the region finds them: the reshape of the launched vector. -/
theorem V_main_v0 (c : Dev nD) :
    (V m c main_v0 : S4096x1.Idx → BitVec 32) = shapeCast S4096x1 (Y m c) shapeCasts_S4096_S4096x1 := by
  dsimp only [V, V0]
  simp only [hostOps0, List.flatten_cons, List.flatten_nil, List.append_nil]
  after_results
  rfl

/-- The labels as a row, as the region finds them. -/
theorem V_main_v1 (c : Dev nD) :
    (V m c main_v1 : S1x4096.Idx → BitVec 32) = shapeCast S1x4096 (Y m c) shapeCasts_S4096_S1x4096 := by
  dsimp only [V, V0]
  simp only [hostOps0, List.flatten_cons, List.flatten_nil, List.append_nil]
  after_results
  rfl

/-- Row `r` of the row block at point `t` is row `1024·(t / 8) + r` of the matrix. -/
theorem blk0_apply (c : Dev nD) (t : Fin cfg0.N) (r : Fin 1024) (k : Fin 2048) (R : Fin 4096)
    (hR : R.val = 1024 * (t.val / 8) + r.val) :
    (iblk m c 0 t : Vec Ideal S1024x2048 .f32) (ix2 r k) = X m c (ix2 R k) := by
  unfold iblk
  rw [View.read_apply]
  show V m c main_arg0 (((cfg0.win 0).blk t).view.emb (ix2 r k)) = _
  rw [V_main_arg0]
  refine congrArg (m ((c : Thread nD τ).loc main_arg0)) ?_
  obtain ⟨e0, e1, -⟩ := idx_facts t
  funext a
  apply Fin.ext
  match a with
  | ⟨0, _⟩ => show win0_0.index t (0 : Fin 2) * 1024 + 1 * r.val = R.val; omega
  | ⟨1, _⟩ => show win0_0.index t (1 : Fin 2) * 2048 + 1 * k.val = k.val; omega

/-- Row `q` of the column block at point `t` is row `512·(t % 8) + q` of the matrix. -/
theorem blk1_apply (c : Dev nD) (t : Fin cfg0.N) (q : Fin 512) (k : Fin 2048) (Q : Fin 4096)
    (hQ : Q.val = 512 * (t.val % 8) + q.val) :
    (iblk m c 1 t : Vec Ideal S512x2048 .f32) (ix2 q k) = X m c (ix2 Q k) := by
  unfold iblk
  rw [View.read_apply]
  show V m c main_arg0 (((cfg0.win 1).blk t).view.emb (ix2 q k)) = _
  rw [V_main_arg0]
  refine congrArg (m ((c : Thread nD τ).loc main_arg0)) ?_
  obtain ⟨-, -, e0, e1, -⟩ := idx_facts t
  funext a
  apply Fin.ext
  match a with
  | ⟨0, _⟩ => show win0_1.index t (0 : Fin 2) * 512 + 1 * q.val = Q.val; omega
  | ⟨1, _⟩ => show win0_1.index t (1 : Fin 2) * 2048 + 1 * k.val = k.val; omega

/-- Entry `r` of the row block's labels at point `t` is label `1024·(t / 8) + r`. -/
theorem blk2_apply (c : Dev nD) (t : Fin cfg0.N) (r : Fin 1024) (R : Fin 4096)
    (hR : R.val = 1024 * (t.val / 8) + r.val) :
    (iblk m c 2 t : Vec Ideal S1024x1 .i32) (ix2 r (0 : Fin 1)) = Y m c (ix1 R) := by
  unfold iblk
  rw [View.read_apply]
  show V m c main_v0 (((cfg0.win 2).blk t).view.emb (ix2 r (0 : Fin 1))) = _
  rw [V_main_v0]
  obtain ⟨-, -, -, -, e0, e1, -⟩ := idx_facts t
  refine shapeCast_apply _ _ _ (ix1 R) ?_
  rw [Shape.rowMajor_val_two, Shape.rowMajor_val_one]
  show R.val = (win0_2.index t (0 : Fin 2) * 1024 + 1 * r.val) * 1 + (win0_2.index t (1 : Fin 2) * 1 + 1 * 0)
  omega

/-- Entry `q` of the column block's labels at point `t` is label `512·(t % 8) + q`. -/
theorem blk3_apply (c : Dev nD) (t : Fin cfg0.N) (q : Fin 512) (Q : Fin 4096)
    (hQ : Q.val = 512 * (t.val % 8) + q.val) :
    (iblk m c 3 t : Vec Ideal S1x512 .i32) (ix2 (0 : Fin 1) q) = Y m c (ix1 Q) := by
  unfold iblk
  rw [View.read_apply]
  show V m c main_v1 (((cfg0.win 3).blk t).view.emb (ix2 (0 : Fin 1) q)) = _
  rw [V_main_v1]
  obtain ⟨-, -, -, -, -, -, e0, e1, -⟩ := idx_facts t
  refine shapeCast_apply _ _ _ (ix1 Q) ?_
  rw [Shape.rowMajor_val_two, Shape.rowMajor_val_one]
  show Q.val = (win0_3.index t (0 : Fin 2) * 1 + 1 * 0) * 4096 + (win0_3.index t (1 : Fin 2) * 512 + 1 * q.val)
  omega

end Cert.KernelIdeal.Frame

end
-- ==== Proof.KI.Value.lean ====
/-
  The kernel's value at the ideal values: the two output arrays end holding, at every row `i` of the matrix, the hardest
  positive distance `apK i` and the hardest negative distance `anK i` of the specification.

  The grid's point `t = 8·ib + jb` handles row block `ib` against column block `jb`. Two scratch buffers carry, along a
  row block, the running maximum and minimum over the column blocks seen so far: after point `t` they hold, at row `r`,
  `posUpTo (1024·ib + r) (jb + 1)` and `negUpTo (1024·ib + r) (jb + 1)` — restarted from `⊥` and `⊤` at `jb = 0`, raised
  (lowered) at every point by the block's maximum (minimum), which is the block payload read on the four blocks the
  point is handed. This is an induction on the point. At `jb = 7` the outputs' buffers hold the root of the clamp at `0`
  of the finished extremes, that is `apK` and `anK` of the row, and that point writes them back into row block `ib` of
  the output arrays; the four row blocks tile the arrays.
-/
import proofs.«108540_j67207648247978_2_alg».proof.Proof.KI.ValueBlocks
import proofs.«108540_j67207648247978_2_alg».proof.Proof.PayValue
import proofs.«108540_j67207648247978_2_alg».proof.Proof.Spec
import Idealize.ShloMosaic.Lib.Pipeline.Value
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Mining

variable (m : (ℓ : Loc nD τ sig) → Buf (Elt Ideal) ℓ)

/-! ## The running extremes, block by block -/

section Law
variable (x : SX.Idx → EReal) (y : SY.Idx → BitVec 32) (i : Fin 4096)

theorem filter_lt_succ (n : ℕ) (hn : n < 8) :
    (Finset.univ.filter fun b : Fin 8 => b.val < n + 1)
      = insert (⟨n, hn⟩ : Fin 8) (Finset.univ.filter fun b : Fin 8 => b.val < n) := by
  ext b
  simp only [Finset.mem_filter, Finset.mem_univ, true_and, Finset.mem_insert, Fin.ext_iff]
  omega

theorem not_mem_filter_lt (n : ℕ) (hn : n < 8) :
    (⟨n, hn⟩ : Fin 8) ∉ Finset.univ.filter fun b : Fin 8 => b.val < n := by
  simp

/-- Before any block the running maximum is `⊥` … -/
theorem posUpTo_zero : posUpTo x y i 0 = ⊥ := by
  unfold posUpTo
  rw [Finset.filter_false_of_mem fun b _ => Nat.not_lt_zero _]
  rfl

/-- … and block `n` raises it to the maximum with the block's. -/
theorem posUpTo_succ (n : ℕ) (hn : n < 8) :
    posUpTo x y i (n + 1) = max (posUpTo x y i n) (blkMax x y i ⟨n, hn⟩) := by
  unfold posUpTo
  rw [filter_lt_succ n hn, Finset.fold_insert (not_mem_filter_lt n hn), max_comm]

/-- Before any block the running minimum is `⊤` … -/
theorem negUpTo_zero : negUpTo x y i 0 = ⊤ := by
  unfold negUpTo
  rw [Finset.filter_false_of_mem fun b _ => Nat.not_lt_zero _]
  rfl

/-- … and block `n` lowers it to the minimum with the block's. -/
theorem negUpTo_succ (n : ℕ) (hn : n < 8) :
    negUpTo x y i (n + 1) = min (negUpTo x y i n) (blkMin x y i ⟨n, hn⟩) := by
  unfold negUpTo
  rw [filter_lt_succ n hn, Finset.fold_insert (not_mem_filter_lt n hn), min_comm]

end Law

/-! ## A block's extremes are the kernel's block payloads -/

/-- On blocks that are rows `R` and `col b ·` of the matrix and of the labels, the block payload of the maximum at row
    `r` is the block's maximum of the specification. -/
theorem pay9_blkMax (x : SX.Idx → EReal) (y : SY.Idx → BitVec 32) (v3 : Vec Ideal S1024x2048 .f32)
    (v4 : Vec Ideal S512x2048 .f32) (v21 : Vec Ideal S1024x1 .i32) (v23 : Vec Ideal S1x512 .i32)
    (R : Fin 4096) (r : Fin 1024) (b : Fin 8)
    (h3 : ∀ k : Fin 2048, v3 (ix2 r k) = x (ix2 R k))
    (h4 : ∀ (q : Fin 512) (k : Fin 2048), v4 (ix2 q k) = x (ix2 (col b q) k))
    (h21 : v21 (ix2 r (0 : Fin 1)) = y (ix1 R))
    (h23 : ∀ q : Fin 512, v23 (ix2 (0 : Fin 1) q) = y (ix1 (col b q))) :
    k0_pay9 (F := Ideal) v3 v4 v21 v23 (ix2 r (0 : Fin 1)) = blkMax x y R b := by
  rw [PayValue.pay9_apply]
  unfold blkMax d2 sqn gram
  refine Finset.fold_congr fun q _ => ?_
  rw [h21, h23 q]
  simp only [h3, h4]

/-- The same for the minimum. -/
theorem pay10_blkMin (x : SX.Idx → EReal) (y : SY.Idx → BitVec 32) (v3 : Vec Ideal S1024x2048 .f32)
    (v4 : Vec Ideal S512x2048 .f32) (v21 : Vec Ideal S1024x1 .i32) (v23 : Vec Ideal S1x512 .i32)
    (R : Fin 4096) (r : Fin 1024) (b : Fin 8)
    (h3 : ∀ k : Fin 2048, v3 (ix2 r k) = x (ix2 R k))
    (h4 : ∀ (q : Fin 512) (k : Fin 2048), v4 (ix2 q k) = x (ix2 (col b q) k))
    (h21 : v21 (ix2 r (0 : Fin 1)) = y (ix1 R))
    (h23 : ∀ q : Fin 512, v23 (ix2 (0 : Fin 1) q) = y (ix1 (col b q))) :
    k0_pay10 (F := Ideal) v3 v4 v21 v23 (ix2 r (0 : Fin 1)) = blkMin x y R b := by
  rw [PayValue.pay10_apply]
  unfold blkMin d2 sqn gram
  refine Finset.fold_congr fun q _ => ?_
  rw [h21, h23 q]
  simp only [h3, h4]

/-- At point `t`, row `r` of the row block against column block `t % 8`: the block's maximum for row `1024·(t / 8) + r`. -/
theorem blockMax_at (c : Dev nD) (t : Fin cfg0.N) (r : Fin 1024) (R : Fin 4096) (hR : R.val = 1024 * (t.val / 8) + r.val)
    (b : Fin 8) (hb : b.val = t.val % 8) :
    k0_pay9 (F := Ideal) (iblk m c 0 t) (iblk m c 1 t) (iblk m c 2 t) (iblk m c 3 t) (ix2 r (0 : Fin 1)) = blkMax (X m c) (Y m c) R b :=
  pay9_blkMax (X m c) (Y m c) (iblk m c 0 t) (iblk m c 1 t) (iblk m c 2 t) (iblk m c 3 t) R r b
    (fun k => blk0_apply m c t r k R hR)
    (fun q k => blk1_apply m c t q k (col b q) (by show 512 * b.val + q.val = _; rw [hb]))
    (blk2_apply m c t r R hR)
    (fun q => blk3_apply m c t q (col b q) (by show 512 * b.val + q.val = _; rw [hb]))

/-- The same for the minimum. -/
theorem blockMin_at (c : Dev nD) (t : Fin cfg0.N) (r : Fin 1024) (R : Fin 4096) (hR : R.val = 1024 * (t.val / 8) + r.val)
    (b : Fin 8) (hb : b.val = t.val % 8) :
    k0_pay10 (F := Ideal) (iblk m c 0 t) (iblk m c 1 t) (iblk m c 2 t) (iblk m c 3 t) (ix2 r (0 : Fin 1)) = blkMin (X m c) (Y m c) R b :=
  pay10_blkMin (X m c) (Y m c) (iblk m c 0 t) (iblk m c 1 t) (iblk m c 2 t) (iblk m c 3 t) R r b
    (fun k => blk0_apply m c t r k R hR)
    (fun q k => blk1_apply m c t q k (col b q) (by show 512 * b.val + q.val = _; rw [hb]))
    (blk2_apply m c t r R hR)
    (fun q => blk3_apply m c t q (col b q) (by show 512 * b.val + q.val = _; rw [hb]))

/-! ## What each point leaves, as payloads of its blocks -/

/-- At the first column block of a row block the two running extremes restart. -/
theorem scr_A (c : Dev nD) (t : Fin cfg0.N) (h0 : t.val % 8 = 0) (h1 : ¬t.val % 8 = 7) :
    (outsAt0 m c t.val t.isLt).2.2.1 = k0_pay1 (k0_pay9 (iblk m c 0 t) (iblk m c 1 t) (iblk m c 2 t) (iblk m c 3 t)) (k0_pay5 (F := Ideal))
    ∧ (outsAt0 m c t.val t.isLt).2.2.2 = k0_pay2 (k0_pay10 (iblk m c 0 t) (iblk m c 1 t) (iblk m c 2 t) (iblk m c 3 t)) (k0_pay6 (F := Ideal)) := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

/-- Between the first and the last column block they are updated from what the point before left. -/
theorem scr_B (c : Dev nD) (t : Fin cfg0.N) (h0 : ¬t.val % 8 = 0) (h1 : ¬t.val % 8 = 7) :
    (outsAt0 m c t.val t.isLt).2.2.1 = k0_pay1 (k0_pay9 (iblk m c 0 t) (iblk m c 1 t) (iblk m c 2 t) (iblk m c 3 t)) (outsAt0 m c (t.val - 1) (Nat.lt_of_le_of_lt (Nat.sub_le _ _) t.isLt)).2.2.1
    ∧ (outsAt0 m c t.val t.isLt).2.2.2 = k0_pay2 (k0_pay10 (iblk m c 0 t) (iblk m c 1 t) (iblk m c 2 t) (iblk m c 3 t)) (outsAt0 m c (t.val - 1) (Nat.lt_of_le_of_lt (Nat.sub_le _ _) t.isLt)).2.2.2 := by
  rw [outsAt0_B m c t h0 h1]
  dsimp only
  exact ⟨sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At the last column block likewise, and the two outputs are the roots of the clamped extremes. -/
theorem scr_C (c : Dev nD) (t : Fin cfg0.N) (h0 : ¬t.val % 8 = 0) (h1 : t.val % 8 = 7) :
    (outsAt0 m c t.val t.isLt).2.2.1 = k0_pay1 (k0_pay9 (iblk m c 0 t) (iblk m c 1 t) (iblk m c 2 t) (iblk m c 3 t)) (outsAt0 m c (t.val - 1) (Nat.lt_of_le_of_lt (Nat.sub_le _ _) t.isLt)).2.2.1
    ∧ (outsAt0 m c t.val t.isLt).2.2.2 = k0_pay2 (k0_pay10 (iblk m c 0 t) (iblk m c 1 t) (iblk m c 2 t) (iblk m c 3 t)) (outsAt0 m c (t.val - 1) (Nat.lt_of_le_of_lt (Nat.sub_le _ _) t.isLt)).2.2.2
    ∧ (outsAt0 m c t.val t.isLt).1 = k0_pay3 (k0_pay1 (k0_pay9 (iblk m c 0 t) (iblk m c 1 t) (iblk m c 2 t) (iblk m c 3 t)) (outsAt0 m c (t.val - 1) (Nat.lt_of_le_of_lt (Nat.sub_le _ _) t.isLt)).2.2.1)
    ∧ (outsAt0 m c t.val t.isLt).2.1 = k0_pay4 (k0_pay2 (k0_pay10 (iblk m c 0 t) (iblk m c 1 t) (iblk m c 2 t) (iblk m c 3 t)) (outsAt0 m c (t.val - 1) (Nat.lt_of_le_of_lt (Nat.sub_le _ _) t.isLt)).2.2.2) := by
  rw [outsAt0_C m c t h0 h1]
  dsimp only
  exact ⟨sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
    out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2,
    out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The invariant of the running extremes -/

/-- One update of the running maximum, at one row: the maximum of what was there and the block's. -/
theorem step_max (x : SX.Idx → EReal) (y : SY.Idx → BitVec 32) (R : Fin 4096) (j : S1024x1.Idx) (b : Fin 8)
    (S Sprev : Vec Ideal S1024x1 .f32) (P : FVec Ideal S1024x1 .f32) (hS : S = k0_pay1 (F := Ideal) P Sprev)
    (hP : P j = blkMax x y R b) (hprev : Sprev j = posUpTo x y R b.val) : S j = posUpTo x y R (b.val + 1) := by
  rw [hS, PayValue.pay1_apply, hP, hprev, posUpTo_succ x y R b.val b.isLt]

/-- One update of the running minimum, at one row. -/
theorem step_min (x : SX.Idx → EReal) (y : SY.Idx → BitVec 32) (R : Fin 4096) (j : S1024x1.Idx) (b : Fin 8)
    (S Sprev : Vec Ideal S1024x1 .f32) (P : FVec Ideal S1024x1 .f32) (hS : S = k0_pay2 (F := Ideal) P Sprev)
    (hP : P j = blkMin x y R b) (hprev : Sprev j = negUpTo x y R b.val) : S j = negUpTo x y R (b.val + 1) := by
  rw [hS, PayValue.pay2_apply, hP, hprev, negUpTo_succ x y R b.val b.isLt]

/-- After point `n` the two scratches hold, at row `r`, the running extremes of row `1024·(n / 8) + r` of the matrix over
    the first `n % 8 + 1` column blocks. -/
theorem scratch_inv (c : Dev nD) : ∀ (n : ℕ) (hn : n < cfg0.N) (r : Fin 1024) (R : Fin 4096),
    R.val = 1024 * (n / 8) + r.val →
    (outsAt0 m c n hn).2.2.1 (ix2 r (0 : Fin 1)) = posUpTo (X m c) (Y m c) R (n % 8 + 1)
    ∧ (outsAt0 m c n hn).2.2.2 (ix2 r (0 : Fin 1)) = negUpTo (X m c) (Y m c) R (n % 8 + 1) := by
  intro n
  induction n using Nat.strong_induction_on with
  | _ n ih =>
    intro hn r R hR
    have hN : cfg0.N = 32 := N_0
    have hb : n % 8 < 8 := Nat.mod_lt _ (by norm_num)
    have eMax := blockMax_at m c ⟨n, hn⟩ r R hR ⟨n % 8, hb⟩ rfl
    have eMin := blockMin_at m c ⟨n, hn⟩ r R hR ⟨n % 8, hb⟩ rfl
    by_cases h0 : n % 8 = 0
    · have h1 : ¬n % 8 = 7 := by omega
      obtain ⟨e0, e1⟩ := scr_A m c ⟨n, hn⟩ h0 h1
      have p0 : k0_pay5 (F := Ideal) (ix2 r (0 : Fin 1)) = posUpTo (X m c) (Y m c) R (n % 8) := by
        rw [h0, posUpTo_zero]; exact PayValue.pay5_apply _
      have p1 : k0_pay6 (F := Ideal) (ix2 r (0 : Fin 1)) = negUpTo (X m c) (Y m c) R (n % 8) := by
        rw [h0, negUpTo_zero]; exact PayValue.pay6_apply _
      exact ⟨step_max (X m c) (Y m c) R (ix2 r (0 : Fin 1)) ⟨n % 8, hb⟩ _ _ _ e0 eMax p0,
        step_min (X m c) (Y m c) R (ix2 r (0 : Fin 1)) ⟨n % 8, hb⟩ _ _ _ e1 eMin p1⟩
    · have hn1 : n - 1 < n := by omega
      have hprev := ih (n - 1) hn1 (Nat.lt_of_le_of_lt (Nat.sub_le _ _) hn) r R (by omega)
      have ek : (n - 1) % 8 + 1 = n % 8 := by omega
      rw [ek] at hprev
      by_cases h1 : n % 8 = 7
      · obtain ⟨e0, e1, -, -⟩ := scr_C m c ⟨n, hn⟩ h0 h1
        exact ⟨step_max (X m c) (Y m c) R (ix2 r (0 : Fin 1)) ⟨n % 8, hb⟩ _ _ _ e0 eMax hprev.1,
          step_min (X m c) (Y m c) R (ix2 r (0 : Fin 1)) ⟨n % 8, hb⟩ _ _ _ e1 eMin hprev.2⟩
      · obtain ⟨e0, e1⟩ := scr_B m c ⟨n, hn⟩ h0 h1
        exact ⟨step_max (X m c) (Y m c) R (ix2 r (0 : Fin 1)) ⟨n % 8, hb⟩ _ _ _ e0 eMax hprev.1,
          step_min (X m c) (Y m c) R (ix2 r (0 : Fin 1)) ⟨n % 8, hb⟩ _ _ _ e1 eMin hprev.2⟩

/-! ## The outputs at the last column block -/

/-- At the last column block of row block `t / 8` the two outputs hold, at row `r`, the hardest positive and the
    hardest negative distance of row `1024·(t / 8) + r`. -/
theorem out_at (c : Dev nD) (t : Fin cfg0.N) (h7 : t.val % 8 = 7) (r : Fin 1024) (R : Fin 4096)
    (hR : R.val = 1024 * (t.val / 8) + r.val) :
    (outsAt0 m c t.val t.isLt).1 (ix2 r (0 : Fin 1)) = apK (X m c) (Y m c) R
    ∧ (outsAt0 m c t.val t.isLt).2.1 (ix2 r (0 : Fin 1)) = anK (X m c) (Y m c) R := by
  have h0 : ¬t.val % 8 = 0 := by omega
  obtain ⟨e0, e1, e4, e5⟩ := scr_C m c t h0 h7
  obtain ⟨i0, i1⟩ := scratch_inv m c t.val t.isLt r R hR
  rw [h7] at i0 i1
  constructor
  · rw [e4, PayValue.pay3_apply, ← e0, i0]; rfl
  · rw [e5, PayValue.pay4_apply, ← e1, i1]; rfl

/-- The first output's buffer at the last column block of row block `t / 8`, with the matrix and the labels spelt as
    the launch contents. -/
theorem out4_last (c : Dev nD) (t : Fin cfg0.N) (ht : t.val % 8 = 7) (r : Fin 1024) :
    (outsAt0 (F := Ideal) m c t.val t.isLt).1 (ix2 r (0 : Fin 1))
      = Cert.Mining.apK (m ((c.tc : Thread nD τ).loc main_arg0)) (m ((c.tc : Thread nD τ).loc main_arg1))
          (⟨1024 * (t.val / 8) + r.val, by have := t.isLt; have := r.isLt; have : cfg0.N = 32 := N_0; omega⟩ : Fin 4096) :=
  (out_at m c t ht r _ rfl).1

/-- The second output's buffer there. -/
theorem out5_last (c : Dev nD) (t : Fin cfg0.N) (ht : t.val % 8 = 7) (r : Fin 1024) :
    (outsAt0 (F := Ideal) m c t.val t.isLt).2.1 (ix2 r (0 : Fin 1))
      = Cert.Mining.anK (m ((c.tc : Thread nD τ).loc main_arg0)) (m ((c.tc : Thread nD τ).loc main_arg1))
          (⟨1024 * (t.val / 8) + r.val, by have := t.isLt; have := r.isLt; have : cfg0.N = 32 := N_0; omega⟩ : Fin 4096) :=
  (out_at m c t ht r _ rfl).2

/-! ## The two output arrays -/

/-- The hardest positive distance of every row, as contents of the first output. -/
abbrev G4 (c : Dev nD) : S4096x1.Idx → EReal := fun i => apK (X m c) (Y m c) ⟨(i 0).val, idx2_lt0 i⟩
/-- The hardest negative distance of every row, as contents of the second output. -/
abbrev G5 (c : Dev nD) : S4096x1.Idx → EReal := fun i => anK (X m c) (Y m c) ⟨(i 0).val, idx2_lt0 i⟩

/-- What a last column block writes back into the first output is its row block of `G4`. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  have key : ∀ j : S1024x1.Idx, (outsAt0 m c t.val t.isLt).1 j = G4 m c (((cfg0.win 4).blk t).view.emb j) := by
    intro j
    obtain ⟨r, u, rfl⟩ : ∃ (r : Fin 1024) (u : Fin 1), j = ix2 r u := ⟨j 0, j 1, eq_ix2 j⟩
    obtain rfl : u = 0 := Subsingleton.elim _ _
    have hN : cfg0.N = 32 := N_0
    have hR : 1024 * (t.val / 8) + r.val < 4096 := by have := t.isLt; have := r.isLt; omega
    rw [(out_at m c t h7 r ⟨1024 * (t.val / 8) + r.val, hR⟩ rfl).1]
    obtain ⟨-, -, -, -, -, -, -, -, e0, e1, -⟩ := idx_facts t
    show apK _ _ _ = apK _ _ ⟨_, _⟩
    congr 1
    apply Fin.ext
    show 1024 * (t.val / 8) + r.val = win0_4.index t (0 : Fin 2) * 1024 + 1 * r.val
    omega
  funext j
  exact key j

/-- The same for the second output. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  show (cfg0.win 5).cut (grid0.coords t) ((dats m 0 c).after 5 t) = _
  rw [after0_5]
  have key : ∀ j : S1024x1.Idx, (outsAt0 m c t.val t.isLt).2.1 j = G5 m c (((cfg0.win 5).blk t).view.emb j) := by
    intro j
    obtain ⟨r, u, rfl⟩ : ∃ (r : Fin 1024) (u : Fin 1), j = ix2 r u := ⟨j 0, j 1, eq_ix2 j⟩
    obtain rfl : u = 0 := Subsingleton.elim _ _
    have hN : cfg0.N = 32 := N_0
    have hR : 1024 * (t.val / 8) + r.val < 4096 := by have := t.isLt; have := r.isLt; omega
    rw [(out_at m c t h7 r ⟨1024 * (t.val / 8) + r.val, hR⟩ rfl).2]
    obtain ⟨-, -, -, -, -, -, -, -, -, -, e0, e1⟩ := idx_facts t
    show anK _ _ _ = anK _ _ ⟨_, _⟩
    congr 1
    apply Fin.ext
    show 1024 * (t.val / 8) + r.val = win0_5.index t (0 : Fin 2) * 1024 + 1 * r.val
    omega
  funext j
  exact key j

/-- Every row of the first output lies in the row block its last column block writes back. -/
theorem cover4 (i : S4096x1.Idx) : ∃ t : Fin cfg0.N, (cfg0.win 4).flush t = true ∧ i ∈ ((cfg0.win 4).blk t).view.set := by
  have hN : cfg0.N = 32 := N_0
  have h0 : (i 0).val < 4096 := idx2_lt0 i
  have h1 : (i 1).val < 1 := idx2_lt1 i
  obtain ⟨t, ht⟩ : ∃ t : Fin cfg0.N, t.val = 8 * ((i 0).val / 1024) + 7 := ⟨⟨8 * ((i 0).val / 1024) + 7, by omega⟩, rfl⟩
  refine ⟨t, (flush0_4 t).mpr (by omega), ?_⟩
  obtain ⟨-, -, -, -, -, -, -, -, e0, e1, -⟩ := idx_facts t
  show i ∈ ((View.whole main_v2_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- The same for the second output. -/
theorem cover5 (i : S4096x1.Idx) : ∃ t : Fin cfg0.N, (cfg0.win 5).flush t = true ∧ i ∈ ((cfg0.win 5).blk t).view.set := by
  have hN : cfg0.N = 32 := N_0
  have h0 : (i 0).val < 4096 := idx2_lt0 i
  have h1 : (i 1).val < 1 := idx2_lt1 i
  obtain ⟨t, ht⟩ : ∃ t : Fin cfg0.N, t.val = 8 * ((i 0).val / 1024) + 7 := ⟨⟨8 * ((i 0).val / 1024) + 7, by omega⟩, rfl⟩
  refine ⟨t, (flush0_5 t).mpr (by omega), ?_⟩
  obtain ⟨-, -, -, -, -, -, -, -, -, -, e0, e1⟩ := idx_facts t
  show i ∈ ((View.whole main_v2_1).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

/-- The first output's array after the region: the hardest positive distance of every row. -/
theorem arr4_eq (c : Dev nD) : (dats (F := Ideal) m 0 c).arrAt 4 cfg0.N = G4 m c :=
  (dats m 0 c).arrAt_eq_of_cover 4 (G4 m c) (flushed4_eq m c) cover4

/-- The second output's array after the region: the hardest negative distance of every row. -/
theorem arr5_eq (c : Dev nD) : (dats (F := Ideal) m 0 c).arrAt 5 cfg0.N = G5 m c :=
  (dats m 0 c).arrAt_eq_of_cover 5 (G5 m c) (flushed5_eq m c) cover5

theorem arr4_final (c : Dev nD) (i : Fin 4096) :
    (dats (F := Ideal) m 0 c).arrAt 4 cfg0.N (ix2 i (0 : Fin 1)) = Cert.Mining.apK (X m c) (Y m c) i :=
  congrFun (arr4_eq m c) (ix2 i (0 : Fin 1))

theorem arr5_final (c : Dev nD) (i : Fin 4096) :
    (dats (F := Ideal) m 0 c).arrAt 5 cfg0.N (ix2 i (0 : Fin 1)) = Cert.Mining.anK (X m c) (Y m c) i :=
  congrFun (arr5_eq m c) (ix2 i (0 : Fin 1))

end Cert.KernelIdeal.Frame

end
-- ==== Proof.RefValue.lean ====
/-
  The entry-by-entry program, read index by index, is the specification's entry-by-entry side.

  For a matrix `x` (4096 rows of 2048 entries) and labels `y`, the program forms the row sums of squares, the product
  of `x` with its transpose, and from them every clamped squared distance
  `d2 i j = max ((|x_i|² + |x_j|²) − 2·⟨x_i, x_j⟩) 0`; takes the guarded root `dist i j` of each entry (`√d2` where
  `d2 > 0`, else `0`); replaces by −∞ the entries of row `i` whose column has another label and takes the row's
  maximum (`apR`), replaces by +∞ those whose column has the same label and takes the row's minimum (`anR`); and ends
  with the mean hinge of the two vectors. Each stage is stated at coordinates `(i, j)` (or `i`): a sum over an axis
  is the `Fin`-indexed sum over that axis, a maximum or minimum over an axis is the fold of `max` / `min` over the
  axis's coordinates from −∞ / +∞, a comparison with zero and a comparison of two labels select as the order and
  equality decide, and the words of 0, +∞ and −∞ are `0`, `⊤` and `⊥`.
-/
import proofs.«108540_j67207648247978_2_alg».proof.Proof.Gen.ReferenceIdeal.Read
import proofs.«108540_j67207648247978_2_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Indices: the generated index functions at coordinates -/

theorem idx_v1 (i : Fin 4096) (k : Fin 2048) : idx_main_v1 (ix1 i) k = ix2 i k :=
  funext fun a => by match a with | ⟨0, _⟩ => rfl | ⟨1, _⟩ => rfl

theorem lidx_v8 (i j : Fin 4096) (k : Fin 2048) : lidx_main_v8 (ix2 i j) k = ix2 i k :=
  funext fun a => by match a with | ⟨0, _⟩ => rfl | ⟨1, _⟩ => rfl

theorem ridx_v8 (i j : Fin 4096) (k : Fin 2048) : idx_main_v7 (ridx_main_v8 (ix2 i j) k) = ix2 j k :=
  funext fun a => by match a with | ⟨0, _⟩ => rfl | ⟨1, _⟩ => rfl

theorem idx_row (i j : Fin 4096) : idx_main_v2 (idx_main_v4 (ix2 i j)) = ix1 i :=
  funext fun a => by match a with | ⟨0, _⟩ => rfl

theorem idx_col (i j : Fin 4096) : idx_main_v3 (idx_main_v5 (ix2 i j)) = ix1 j :=
  funext fun a => by match a with | ⟨0, _⟩ => rfl

theorem idx_lrow (i j : Fin 4096) : idx_main_v21 (idx_main_v23 (ix2 i j)) = ix1 i :=
  funext fun a => by match a with | ⟨0, _⟩ => rfl

theorem idx_lcol (i j : Fin 4096) : idx_main_v22 (idx_main_v24 (ix2 i j)) = ix1 j :=
  funext fun a => by match a with | ⟨0, _⟩ => rfl

/-! ## The stages at coordinates -/

/-- The row sum of squares is the squared norm. -/
theorem sq_at (x0 : (⟨S4096x2048, .f32⟩ : BufTy).Contents (Elt Ideal)) (i : Fin 4096) :
    val_main_v1 (F := Ideal) x0 (ix1 i) = Cert.Mining.sqn x0 i := by
  rw [val_main_v1_apply, val_main_cst_apply]
  show Ideal.ofBits .f32 0x00000000#32 + _ = _
  rw [Ideal.ofBits_zero_f32, zero_add]
  unfold Cert.Mining.sqn
  refine Finset.sum_congr rfl fun k _ => ?_
  rw [val_main_v0_apply, idx_v1]
  rfl

/-- The product with the transpose is the Gram matrix. -/
theorem gram_at (x0 : (⟨S4096x2048, .f32⟩ : BufTy).Contents (Elt Ideal)) (i j : Fin 4096) :
    val_main_v8 (F := Ideal) x0 (ix2 i j) = Cert.Mining.gram x0 i j := by
  rw [val_main_v8_apply]
  unfold Cert.Mining.gram
  refine Finset.sum_congr rfl fun k _ => ?_
  rw [val_main_v7_apply, lidx_v8, ridx_v8]

/-- The clamped squared distance. -/
theorem d2_at (x0 : (⟨S4096x2048, .f32⟩ : BufTy).Contents (Elt Ideal)) (i j : Fin 4096) :
    val_main_v13 (F := Ideal) x0 (ix2 i j) = Cert.Mining.d2 x0 i j := by
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, idx_row, idx_col, sq_at, sq_at, gram_at]
  show max ((_ + _) - Ideal.ofBits .f32 0x40000000#32 * _) (Ideal.ofBits .f32 0x00000000#32) = _
  rw [Ideal.ofBits_zero_f32]
  rfl

/-- A comparison "greater than zero" selects as the order decides. -/
theorem select_gt_zero {α : Type} (d : EReal) (u v : α) :
    Scalar.select (Ideal.cmp .ogt d 0) u v = if 0 < d then u else v := by
  by_cases h : 0 < d
  · have hc : Ideal.cmp .ogt d 0 = 1#1 := by simp [Ideal.cmp, h]
    rw [hc, select_one, if_pos h]
  · have hc : Ideal.cmp .ogt d 0 = 0#1 := by simp [Ideal.cmp, h]
    rw [hc, select_zero, if_neg h]

/-- The guarded root of the clamped squared distance. -/
theorem dist_at (x0 : (⟨S4096x2048, .f32⟩ : BufTy).Contents (Elt Ideal)) (i j : Fin 4096) :
    val_main_v20 (F := Ideal) x0 (ix2 i j) = Cert.Mining.dist x0 i j := by
  rw [val_main_v20_apply, val_main_v15_apply, val_main_v19_apply, val_main_v18_apply, val_main_v17_apply,
    val_main_v14_apply, val_main_cst_2_apply, val_main_v16_apply, val_main_cst_3_apply,
    val_main_call0_v1_apply, val_main_call0_v0_apply, val_main_cst_4_apply,
    val_main_call1_v1_apply, val_main_call1_v0_apply, val_main_cst_5_apply, d2_at]
  unfold Cert.Mining.dist
  generalize Cert.Mining.d2 x0 i j = d
  show Scalar.select (Ideal.cmp .ogt d (Ideal.ofBits .f32 0x00000000#32))
      (Ideal.sqrt (Scalar.select (Ideal.cmp .ogt d (Ideal.ofBits .f32 0x00000000#32)) d (Ideal.ofBits .f32 0x3F800000#32)))
      (Ideal.ofBits .f32 0x00000000#32) = _
  rw [Ideal.ofBits_zero_f32, select_gt_zero, select_gt_zero]

/-- The label comparison selects as equality of the labels decides. -/
theorem select_eq_label {α : Type} (a b : BitVec 32) (u v : α) :
    Scalar.select (IntOp.cmpi .eq a b) u v = if a = b then u else v := by
  by_cases h : a = b
  · have hc : IntOp.cmpi .eq a b = 1#1 := by simp [IntOp.cmpi, h]
    rw [hc, select_one, if_pos h]
  · have hb : (a == b) = false := beq_eq_false_iff_ne.mpr h
    have hc : IntOp.cmpi .eq a b = 0#1 := by simp [IntOp.cmpi, hb]
    rw [hc, select_zero, if_neg h]

/-- The word of +∞ is `⊤`. -/
theorem ofBits_pinf : Ideal.ofBits .f32 0x7F800000#32 = ⊤ := by simp [Ideal.ofBits, Ideal.ieee]
/-- The word of −∞ is `⊥`. -/
theorem ofBits_ninf : Ideal.ofBits .f32 0xFF800000#32 = ⊥ := by simp [Ideal.ofBits, Ideal.ieee]

/-- Same-label entries keep their distance, the others read −∞. -/
theorem pos_at (x0 : (⟨S4096x2048, .f32⟩ : BufTy).Contents (Elt Ideal)) (x1 : (⟨S4096, .i32⟩ : BufTy).Contents (Elt Ideal))
    (i j : Fin 4096) :
    val_main_v27 (F := Ideal) x0 x1 (ix2 i j) = if x1 (ix1 i) = x1 (ix1 j) then Cert.Mining.dist x0 i j else ⊥ := by
  rw [val_main_v27_apply, val_main_v25_apply, val_main_v23_apply, val_main_v21_apply, val_main_v24_apply,
    val_main_v22_apply, idx_lrow, idx_lcol, val_main_call2_v0_apply, val_main_v26_apply, val_main_cst_6_apply,
    dist_at, select_eq_label]
  show (if _ then _ else -(Ideal.ofBits .f32 0x7F800000#32)) = _
  rw [ofBits_pinf, EReal.neg_top]

/-- Other-label entries keep their distance, the same-label ones read +∞. -/
theorem neg_at (x0 : (⟨S4096x2048, .f32⟩ : BufTy).Contents (Elt Ideal)) (x1 : (⟨S4096, .i32⟩ : BufTy).Contents (Elt Ideal))
    (i j : Fin 4096) :
    val_main_v29 (F := Ideal) x0 x1 (ix2 i j) = if x1 (ix1 i) = x1 (ix1 j) then ⊤ else Cert.Mining.dist x0 i j := by
  rw [val_main_v29_apply, val_main_v25_apply, val_main_v23_apply, val_main_v21_apply, val_main_v24_apply,
    val_main_v22_apply, idx_lrow, idx_lcol, val_main_call3_v0_apply, val_main_cst_8_apply,
    dist_at, select_eq_label]
  show (if _ then Ideal.ofBits .f32 0x7F800000#32 else _) = _
  rw [ofBits_pinf]

/-! ## The two row reductions, read as folds over the columns -/

/-- The shape fact the row reductions drop their axis by. -/
theorem reduces_rows : S4096x4096.Reduces [1] S4096 := by decide

/-- Result row `i` with column `k` inserted is the entry `(i, k)`. -/
theorem lift_row (i k : Fin 4096) : reduces_rows.lift (ix1 i) k = ix2 i k :=
  funext fun a => Fin.ext (by match a with | ⟨0, _⟩ => rfl | ⟨1, _⟩ => rfl)

/-- The hardest positive distance of row `i`. -/
theorem ap_at (x0 : (⟨S4096x2048, .f32⟩ : BufTy).Contents (Elt Ideal)) (x1 : (⟨S4096, .i32⟩ : BufTy).Contents (Elt Ideal))
    (i : Fin 4096) :
    val_main_v28 (F := Ideal) x0 x1 (ix1 i) = Cert.Mining.apR x0 x1 i := by
  unfold val_main_v28
  generalize hy : val_main_v27 (F := Ideal) x0 x1 = y
  rw [Host.reduce_eq_fold_single _ y _ reducesTo_S4096x4096_S4096_d1 reduces_rows h_S_ (ix1 i), val_main_cst_7_apply]
  show (Finset.univ : Finset (Fin 4096)).fold max (Ideal.ofBits .f32 0xFF800000#32) (y ∘ reduces_rows.lift (ix1 i)) = _
  rw [ofBits_ninf]
  unfold Cert.Mining.apR
  refine Finset.fold_congr fun (k : Fin 4096) _ => ?_
  exact (congrArg y (lift_row i k)).trans ((congrFun hy.symm (ix2 i k)).trans (pos_at x0 x1 i k))

/-- The hardest negative distance of row `i`. -/
theorem an_at (x0 : (⟨S4096x2048, .f32⟩ : BufTy).Contents (Elt Ideal)) (x1 : (⟨S4096, .i32⟩ : BufTy).Contents (Elt Ideal))
    (i : Fin 4096) :
    val_main_v30 (F := Ideal) x0 x1 (ix1 i) = Cert.Mining.anR x0 x1 i := by
  unfold val_main_v30
  generalize hy : val_main_v29 (F := Ideal) x0 x1 = y
  rw [Host.reduce_eq_fold_single _ y _ reducesTo_S4096x4096_S4096_d1 reduces_rows h_S_ (ix1 i), val_main_cst_9_apply]
  show (Finset.univ : Finset (Fin 4096)).fold min (Ideal.ofBits .f32 0x7F800000#32) (y ∘ reduces_rows.lift (ix1 i)) = _
  rw [ofBits_pinf]
  unfold Cert.Mining.anR
  refine Finset.fold_congr fun (k : Fin 4096) _ => ?_
  exact (congrArg y (lift_row i k)).trans ((congrFun hy.symm (ix2 i k)).trans (neg_at x0 x1 i k))

/-! ## The result -/

/-- The last seven operations are the mean hinge of the two reductions. -/
theorem tail_eq (x0 : (⟨S4096x2048, .f32⟩ : BufTy).Contents (Elt Ideal)) (x1 : (⟨S4096, .i32⟩ : BufTy).Contents (Elt Ideal)) :
    val_main_v37 (F := Ideal) x0 x1
      = Cert.Mining.hinge bcast_S_S4096 reducesTo_S4096_S_d0 h_S_ (val_main_v28 (F := Ideal) x0 x1) (val_main_v30 (F := Ideal) x0 x1) := rfl

/-- The reference's result is the mean hinge of the entry-by-entry hardest positive and negative distances. -/
theorem result_eq (x0 : FVec Ideal S4096x2048 .f32) (x1 : IVec S4096 32) :
    Cert.ReferenceIdeal.Read.val_main_v37 (F := Ideal) x0 x1
      = Cert.Mining.hinge bcast_S_S4096 reducesTo_S4096_S_d0 h_S_ (fun j => Cert.Mining.apR x0 x1 (j 0)) (fun j => Cert.Mining.anR x0 x1 (j 0)) := by
  rw [tail_eq]
  have hp : val_main_v28 (F := Ideal) x0 x1 = fun j => Cert.Mining.apR x0 x1 (j 0) :=
    funext fun j => by
      obtain ⟨i, rfl⟩ : ∃ i : Fin 4096, j = ix1 i := ⟨j 0, eq_ix1 j⟩
      exact ap_at x0 x1 i
  have hn : val_main_v30 (F := Ideal) x0 x1 = fun j => Cert.Mining.anR x0 x1 (j 0) :=
    funext fun j => by
      obtain ⟨i, rfl⟩ : ∃ i : Fin 4096, j = ix1 i := ⟨j 0, eq_ix1 j⟩
      exact an_at x0 x1 i
  rw [hp, hn]

end Cert.ReferenceIdeal.RefValue

end
-- ==== Proof.lean ====
/-
  Hard-triplet mining: a kernel that mines, row block by row block and column block by column block, the hardest
  positive and hardest negative squared distances of 4096 rows and takes their roots once per row, against a
  reference that takes the root of every squared distance first and mines afterwards. Over the extended reals the
  two agree: the root of the clamp at 0 is monotone, so it commutes with a maximum and with a minimum; every row is
  its own positive, at a distance that is at least 0, which settles the one place the two spellings could differ (the
  maximum's unit); and a maximum taken block by block is the maximum over all columns. Both programs end with the
  same mean hinge of the two distances.

  The three frames: each kernel program's region is run point by point (the matrix is read through two windows at
  once, each holding half of its buffer; two scratch buffers carry the running extremes across the column blocks of a
  row block), and the reference is a straight line of host operations. The idealization rewrote nothing.
-/
import proofs.«108540_j67207648247978_2_alg».proof.Defs
import proofs.«108540_j67207648247978_2_alg».proof.Proof.Gen.Kernel
import proofs.«108540_j67207648247978_2_alg».proof.Proof.Gen.KernelIdeal
import proofs.«108540_j67207648247978_2_alg».proof.Proof.Gen.ReferenceIdeal
import proofs.«108540_j67207648247978_2_alg».proof.Proof.Gen.Pre_finite_inputs
import proofs.«108540_j67207648247978_2_alg».proof.Proof.Gen.ReferenceIdeal.Run
import proofs.«108540_j67207648247978_2_alg».proof.Proof.K.Launch
import proofs.«108540_j67207648247978_2_alg».proof.Proof.KI.Result
import proofs.«108540_j67207648247978_2_alg».proof.Proof.KI.Value
import proofs.«108540_j67207648247978_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves both arguments unchanged. -/
theorem frame_k : Cert.frame_Kernel := fun m ρ _ => Cert.Kernel.Frame.frame m ρ

/-- So does its idealization. -/
theorem frame_ki : Cert.frame_KernelIdeal := fun m ρ _ => Cert.KernelIdeal.Frame.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the mean hinge of the hardest-positive and hardest-negative
    distances of the rows: the kernel's two output arrays are those distances (mined block by block, then the root),
    the reference's two row reductions are the same numbers (the root first, then one reduction). -/
theorem algebraic : Cert.algebraic_KernelIdeal_ReferenceIdeal := by
  intro m ρ m' ρ' _ hagree
  refine ⟨fun c => Cert.Mining.hinge Cert.ReferenceIdeal.Gen.bcast_S_S4096 Cert.ReferenceIdeal.Gen.reducesTo_S4096_S_d0 Cert.ReferenceIdeal.Gen.h_S_
      (fun j => Cert.Mining.apR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (j 0))
      (fun j => Cert.Mining.anR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (j 0)), ?_, ?_⟩
  · refine (θ_run Cert.KernelIdeal.defs _ _).mono (fun r h c => ⟨?_, ?_, ?_⟩) (Cert.KernelIdeal.Frame.run_main m ρ)
    · exact ((h c).2 Cert.KernelIdeal.main_v11 (by decide)).trans
        (Cert.KernelIdeal.Frame.kernel_result m c (Cert.KernelIdeal.Frame.arr4_final m c) (Cert.KernelIdeal.Frame.arr5_final m c))
    · exact ((h c).1 0).trans (((Cert.KernelIdeal.Frame.dats m 0 c).arrAt_in 0 rfl _).trans
        ((Cert.KernelIdeal.Frame.A_eq m c 0).trans (Cert.KernelIdeal.Frame.V_main_arg0 m c)))
    · exact ((h c).2 Cert.KernelIdeal.main_arg1 (by decide)).trans (Cert.KernelIdeal.Frame.Vout_main_arg1 m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v37_eq, (hagree c).1, (hagree c).2]
    exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
